-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v4) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x4096 : Shape := ⟨3, ![4, 4096, 4096]⟩
abbrev S4x4096 : Shape := ⟨2, ![4, 4096]⟩
abbrev S4096 : Shape := ⟨1, ![4096]⟩
abbrev S8x4096 : Shape := ⟨2, ![8, 4096]⟩
abbrev S8 : Shape := ⟨1, ![8]⟩
abbrev S_ : Shape := ⟨0, ![]⟩

class Facts : Prop where
  bcast_S_S4x4096x4096 : S_.BroadcastsInDim S4x4096x4096 (![] : Fin 0 → Fin S4x4096x4096.rank)
  reducesTo_S4x4096x4096_S_d0_1_2 : S4x4096x4096.ReducesTo [0, 1, 2] S_
  h_S_ : 0 < S_.numel
  bcast_S_S4096 : S_.BroadcastsInDim S4096 (![] : Fin 0 → Fin S4096.rank)
  reducesTo_S4096_S_d0 : S4096.ReducesTo [0] S_
  bcast_S_S8x4096 : S_.BroadcastsInDim S8x4096 (![] : Fin 0 → Fin S8x4096.rank)
  reducesTo_S8x4096_S_d0_1 : S8x4096.ReducesTo [0, 1] S_
  bcast_S_S8 : S_.BroadcastsInDim S8 (![] : Fin 0 → Fin S8.rank)
  reducesTo_S8_S_d0 : S8.ReducesTo [0] S_

variable [Facts]

def fn_part1 {F : FTy → Type} [FloatOps F] (main_arg6 : FVec F S4096 .f32) (main_arg7 : FVec F S8x4096 .f32) (main_arg8 : FVec F S8 .f32) (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  let main_v19 : FVec F S4096 .f32 := Host.absf main_arg6
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  let main_v24 : FVec F S8x4096 .f32 := Host.absf main_arg7
  let main_cst_8 : FVec F S_ .f32 := constant S_ .f32 0x7F800000#32
  let main_v25 : FVec F S8x4096 .f32 := broadcastInDim S8x4096 ![] bcast_S_S8x4096 main_cst_8
  let main_v26 : IVec S8x4096 1 := cmpf .olt main_v24 main_v25
  let main_c_9 : IVec S_ 1 := constantI S_ 1 1#1
  let main_v27 : IVec S_ 1 := (fun x v => Host.reduce IntOp.andi x v reducesTo_S8x4096_S_d0_1 h_S_) main_v26 main_c_9
  let main_v28 : IVec S_ 1 := andi main_v23 main_v27
  let main_v29 : FVec F S8 .f32 := Host.absf main_arg8
  let main_cst_10 : FVec F S_ .f32 := constant S_ .f32 0x7F800000#32
  let main_v30 : FVec F S8 .f32 := broadcastInDim S8 ![] bcast_S_S8 main_cst_10
  let main_v31 : IVec S8 1 := cmpf .olt main_v29 main_v30
  let main_c_11 : IVec S_ 1 := constantI S_ 1 1#1
  let main_v32 : IVec S_ 1 := (fun x v => Host.reduce IntOp.andi x v reducesTo_S8_S_d0 h_S_) main_v31 main_c_11
  let main_v33 : IVec S_ 1 := andi main_v28 main_v32
  main_v33

def fn {F : FTy → Type} [FloatOps F] (main_arg0 : FVec F S4x4096x4096 .f32) (main_arg1 : IVec S4x4096 32) (main_arg2 : IVec S4x4096 32) (main_arg3 : FVec F S4096 .f32) (main_arg4 : FVec F S4096 .f32) (main_arg5 : FVec F S4096 .f32) (main_arg6 : FVec F S4096 .f32) (main_arg7 : FVec F S8x4096 .f32) (main_arg8 : FVec F S8 .f32) : IVec S_ 1 :=
  let main_v0 : FVec F S4x4096x4096 .f32 := Host.absf main_arg0
  let main_cst : FVec F S_ .f32 := constant S_ .f32 0x7F800000#32
  let main_v1 : FVec F S4x4096x4096 .f32 := broadcastInDim S4x4096x4096 ![] bcast_S_S4x4096x4096 main_cst
  let main_v2 : IVec S4x4096x4096 1 := cmpf .olt main_v0 main_v1
  let main_c : IVec S_ 1 := constantI S_ 1 1#1
  let main_v3 : IVec S_ 1 := (fun x v => Host.reduce IntOp.andi x v reducesTo_S4x4096x4096_S_d0_1_2 h_S_) main_v2 main_c
  let main_v4 : FVec F S4096 .f32 := Host.absf main_arg3
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S4096 .f32 := Host.absf main_arg5
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_arg6 main_arg7 main_arg8 main_v13 main_v16
-- ==== Kernel.lean ====
abbrev S4x4096x4096 : Shape := ⟨3, ![4, 4096, 4096]⟩
abbrev S4x4096 : Shape := ⟨2, ![4, 4096]⟩
abbrev S4096 : Shape := ⟨1, ![4096]⟩
abbrev S8x4096 : Shape := ⟨2, ![8, 4096]⟩
abbrev S8 : Shape := ⟨1, ![8]⟩
abbrev S4x4096x1 : Shape := ⟨3, ![4, 4096, 1]⟩
abbrev S4x1x8 : Shape := ⟨3, ![4, 1, 8]⟩
abbrev S2x256x4096 : Shape := ⟨3, ![2, 256, 4096]⟩
abbrev S2x256x1 : Shape := ⟨3, ![2, 256, 1]⟩
abbrev S2x1x8 : Shape := ⟨3, ![2, 1, 8]⟩
abbrev S2x4096 : Shape := ⟨2, ![2, 4096]⟩
abbrev S2 : Shape := ⟨1, ![2]⟩
abbrev S2x1 : Shape := ⟨2, ![2, 1]⟩
abbrev S1x4096 : Shape := ⟨2, ![1, 4096]⟩
abbrev S8x1 : Shape := ⟨2, ![8, 1]⟩
abbrev S2x8 : Shape := ⟨2, ![2, 8]⟩
abbrev S1x8 : Shape := ⟨2, ![1, 8]⟩
abbrev S_ : Shape := ⟨0, ![]⟩
abbrev S1 : Shape := ⟨1, ![1]⟩

abbrev nBuf : Space → Nat
  | .hbm => 15
  | .vmem => 14
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i32⟩
  | .hbm, ⟨2, _⟩ => ⟨S4x4096, .i32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S8x4096, .f32⟩
  | .hbm, ⟨8, _⟩ => ⟨S8, .f32⟩
  | .hbm, ⟨9, _⟩ => ⟨S4x4096, .i32⟩
  | .hbm, ⟨10, _⟩ => ⟨S4x4096, .f32⟩
  | .hbm, ⟨11, _⟩ => ⟨S4x4096x1, .f32⟩
  | .hbm, ⟨12, _⟩ => ⟨S4x1x8, .f32⟩
  | .hbm, ⟨13, _⟩ => ⟨S_, .f32⟩
  | .hbm, ⟨14, _⟩ => ⟨S1, .f32⟩
  | .local _ .vmem, ⟨0, _⟩ => ⟨S2x256x4096, .f32⟩
  | .local _ .vmem, ⟨1, _⟩ => ⟨S2x256x4096, .f32⟩
  | .local _ .vmem, ⟨2, _⟩ => ⟨S2x256x1, .f32⟩
  | .local _ .vmem, ⟨3, _⟩ => ⟨S2x256x1, .f32⟩
  | .local _ .vmem, ⟨4, _⟩ => ⟨S4096, .f32⟩
  | .local _ .vmem, ⟨5, _⟩ => ⟨S4096, .f32⟩
  | .local _ .vmem, ⟨6, _⟩ => ⟨S4096, .f32⟩
  | .local _ .vmem, ⟨7, _⟩ => ⟨S4096, .f32⟩
  | .local _ .vmem, ⟨8, _⟩ => ⟨S8x4096, .f32⟩
  | .local _ .vmem, ⟨9, _⟩ => ⟨S8, .f32⟩
  | .local _ .vmem, ⟨10, _⟩ => ⟨S2x1x8, .f32⟩
  | .local _ .vmem, ⟨11, _⟩ => ⟨S2x1x8, .f32⟩
  | .local _ .vmem, ⟨12, _⟩ => ⟨S2x4096, .f32⟩
  | .local _ .vmem, ⟨13, _⟩ => ⟨S2x4096, .f32⟩
  | _, _ => ⟨S4x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v24 : BitVec 1 := Scalar.cmpi .eq arg1 c15_i32
  let v25 : BitVec 32 := Scalar.extui v24
  let c0_i32_16 : BitVec 32 := 0#32
  let v26 : BitVec 1 := Scalar.cmpi .ne v25 c0_i32_16
  v26

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2x1x8 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bcast_S4x4096_S4x4096x1_0_1 : S4x4096.BroadcastsInDim S4x4096x1 (![0, 1] : Fin 2 → Fin S4x4096x1.rank)
  inb_S2x4096_S2x4096_0_0 : ∀ a, (![0, 0] : Fin 2 → Nat) a + S2x4096.size a ≤ S2x4096.size a
  h_S2x4096 : 0 < S2x4096.numel
  shapeCasts_S2x4096_S2x4096 : S2x4096.ShapeCasts S2x4096
  inb_S2x256x4096_S2x256x4096_0_0_0 : ∀ a, (![0, 0, 0] : Fin 3 → Nat) a + S2x256x4096.size a ≤ S2x256x4096.size a
  h_S2x256x4096 : 0 < S2x256x4096.numel
  inb_S2x256x1_S2x256x1_0_0_0 : ∀ a, (![0, 0, 0] : Fin 3 → Nat) a + S2x256x1.size a ≤ S2x256x1.size a
  h_S2x256x1 : 0 < S2x256x1.numel
  shapeCasts_S2x256x1_S2x256x1 : S2x256x1.ShapeCasts S2x256x1
  broadcasts_S2x256x1_S2x256x4096 : S2x256x1.Broadcasts S2x256x4096
  reduces_S2x256x4096_S2x4096 : S2x256x4096.Reduces [1] S2x4096
  natLt_1_32 : 1 < 32
  reduces_S2x4096_S2 : S2x4096.Reduces [1] S2
  shapeCasts_S2_S2x1 : S2.ShapeCasts S2x1
  broadcasts_S2x1_S2x4096 : S2x1.Broadcasts S2x4096
  inb_S4096_S4096_0 : ∀ a, (![0] : Fin 1 → Nat) a + S4096.size a ≤ S4096.size a
  h_S4096 : 0 < S4096.numel
  shapeCasts_S4096_S1x4096 : S4096.ShapeCasts S1x4096
  broadcasts_S1x4096_S2x4096 : S1x4096.Broadcasts S2x4096
  inb_S8x4096_S8x4096_0_0 : ∀ a, (![0, 0] : Fin 2 → Nat) a + S8x4096.size a ≤ S8x4096.size a
  h_S8x4096 : 0 < S8x4096.numel
  reduces_S8x4096_S8 : S8x4096.Reduces [1] S8
  shapeCasts_S8_S8x1 : S8.ShapeCasts S8x1
  broadcasts_S8x1_S8x4096 : S8x1.Broadcasts S8x4096
  broadcasts_S1x4096_S8x4096 : S1x4096.Broadcasts S8x4096
  inb_S8_S8_0 : ∀ a, (![0] : Fin 1 → Nat) a + S8.size a ≤ S8.size a
  h_S8 : 0 < S8.numel
  shapeCasts_S8_S1x8 : S8.ShapeCasts S1x8
  broadcasts_S1x8_S2x8 : S1x8.Broadcasts S2x8
  reduces_S2x8_S2 : S2x8.Reduces [1] S2
  broadcasts_S2x1_S2x8 : S2x1.Broadcasts S2x8
  shapeCasts_S2x8_S2x1x8 : S2x8.ShapeCasts S2x1x8
  inb_S2x1x8_S2x1x8_0_0_0 : ∀ a, (![0, 0, 0] : Fin 3 → Nat) a + S2x1x8.size a ≤ S2x1x8.size a
  h_S2x1x8 : 0 < S2x1x8.numel
  bcast_S_S1 : S_.BroadcastsInDim S1 (![] : Fin 0 → Fin S1.rank)
  dot_S2x4096_S8x4096_S2x8_1_1_0_0_n_n_wf : DotDims.WF S2x4096 S8x4096 S2x8 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x256x4096.size a ≤ S4x4096x4096.size a
  hwx0_0 : ∀ i : grid0.Coords, EltTy.bits .f32 = 32 ∨ (Rect.block (s := S4x4096x4096) S2x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x256x1.size a ≤ S4x4096x1.size a
  hwx0_1 : ∀ i : grid0.Coords, EltTy.bits .f32 = 32 ∨ (Rect.block (s := S4x4096x1) S2x256x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096.size a ≤ S4096.size a
  hwx0_2 : ∀ i : grid0.Coords, EltTy.bits .f32 = 32 ∨ (Rect.block (s := S4096) S4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S4096.size a ≤ S4096.size a
  hwx0_3 : ∀ i : grid0.Coords, EltTy.bits .f32 = 32 ∨ (Rect.block (s := S4096) S4096.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096.size a ≤ S4096.size a
  hwx0_4 : ∀ i : grid0.Coords, EltTy.bits .f32 = 32 ∨ (Rect.block (s := S4096) S4096.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096.size a ≤ S4096.size a
  hwx0_5 : ∀ i : grid0.Coords, EltTy.bits .f32 = 32 ∨ (Rect.block (s := S4096) S4096.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S8x4096.size a ≤ S8x4096.size a
  hwx0_6 : ∀ i : grid0.Coords, EltTy.bits .f32 = 32 ∨ (Rect.block (s := S8x4096) S8x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S8.size a ≤ S8.size a
  hwx0_7 : ∀ i : grid0.Coords, EltTy.bits .f32 = 32 ∨ (Rect.block (s := S8) S8.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2x1x8.size a ≤ S4x1x8.size a
  hwx0_8 : ∀ i : grid0.Coords, EltTy.bits .f32 = 32 ∨ (Rect.block (s := S4x1x8) S2x1x8.size (cc0_transform_8 i) (hinb0_8 i)).WholeWords (EltTy.packing .f32)

variable [Facts₀]

def dot_S2x4096_S8x4096_S2x8_1_1_0_0_n_n : DotDims S2x4096 S8x4096 S2x8 where
  lhsContracting := [1]
  rhsContracting := [1]
  lhsNonContracting := [0]
  rhsNonContracting := [0]
  lhsBatch := []
  rhsBatch := []
  wf := dot_S2x4096_S8x4096_S2x8_1_1_0_0_n_n_wf

abbrev win0_0 : Pipeline.Window sig grid0 :=
  Pipeline.Window.ofSpec (Memref.whole main_arg0) S2x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2x256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S4096.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S8x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S8.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3) S2x1x8.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S4x4096x4096 : Shape := ⟨3, ![4, 4096, 4096]⟩
abbrev S4x4096 : Shape := ⟨2, ![4, 4096]⟩
abbrev S4096 : Shape := ⟨1, ![4096]⟩
abbrev S8x4096 : Shape := ⟨2, ![8, 4096]⟩
abbrev S8 : Shape := ⟨1, ![8]⟩
abbrev S4x4096x1 : Shape := ⟨3, ![4, 4096, 1]⟩
abbrev S_ : Shape := ⟨0, ![]⟩
abbrev S4x1x4096 : Shape := ⟨3, ![4, 1, 4096]⟩
abbrev S4x1 : Shape := ⟨2, ![4, 1]⟩
abbrev S4x1x1 : Shape := ⟨3, ![4, 1, 1]⟩
abbrev S1x1x4096 : Shape := ⟨3, ![1, 1, 4096]⟩
abbrev S8x1 : Shape := ⟨2, ![8, 1]⟩
abbrev S1x4096 : Shape := ⟨2, ![1, 4096]⟩
abbrev S4x1x8 : Shape := ⟨3, ![4, 1, 8]⟩
abbrev S1x1x8 : Shape := ⟨3, ![1, 1, 8]⟩
abbrev S1 : Shape := ⟨1, ![1]⟩

abbrev nBuf : Space → Nat
  | .hbm => 105
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4x4096, .i32⟩
  | .hbm, ⟨2, _⟩ => ⟨S4x4096, .i32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S8x4096, .f32⟩
  | .hbm, ⟨8, _⟩ => ⟨S8, .f32⟩
  | .hbm, ⟨9, _⟩ => ⟨S4x4096, .i32⟩
  | .hbm, ⟨10, _⟩ => ⟨S4x4096, .f32⟩
  | .hbm, ⟨11, _⟩ => ⟨S4x4096x1, .f32⟩
  | .hbm, ⟨12, _⟩ => ⟨S4x4096x4096, .f32⟩
  | .hbm, ⟨13, _⟩ => ⟨S4x4096x4096, .f32⟩
  | .hbm, ⟨14, _⟩ => ⟨S_, .f32⟩
  | .hbm, ⟨15, _⟩ => ⟨S4x4096x4096, .f32⟩
  | .hbm, ⟨16, _⟩ => ⟨S4x4096x4096, .i1⟩
  | .hbm, ⟨17, _⟩ => ⟨S4x4096x4096, .f32⟩
  | .hbm, ⟨18, _⟩ => ⟨S_, .f32⟩
  | .hbm, ⟨19, _⟩ => ⟨S4x4096, .f32⟩
  | .hbm, ⟨20, _⟩ => ⟨S_, .f32⟩
  | .hbm, ⟨21, _⟩ => ⟨S4x4096, .f32⟩
  | .hbm, ⟨22, _⟩ => ⟨S4x4096, .f32⟩
  | .hbm, ⟨23, _⟩ => ⟨S4x1x4096, .f32⟩
  | .hbm, ⟨24, _⟩ => ⟨S_, .f32⟩
  | .hbm, ⟨25, _⟩ => ⟨S4x1, .f32⟩
  | .hbm, ⟨26, _⟩ => ⟨S4x1x1, .f32⟩
  | .hbm, ⟨27, _⟩ => ⟨S_, .f32⟩
  | .hbm, ⟨28, _⟩ => ⟨S4x1x1, .f32⟩
  | .hbm, ⟨29, _⟩ => ⟨S4x1x1, .f32⟩
  | .hbm, ⟨30, _⟩ => ⟨S4x1x4096, .f32⟩
  | .hbm, ⟨31, _⟩ => ⟨S4x1x4096, .f32⟩
  | .hbm, ⟨32, _⟩ => ⟨S4x1x4096, .f32⟩
  | .hbm, ⟨33, _⟩ => ⟨S_, .f32⟩
  | .hbm, ⟨34, _⟩ => ⟨S4x1, .f32⟩
  | .hbm, ⟨35, _⟩ => ⟨S4x1x1, .f32⟩
  | .hbm, ⟨36, _⟩ => ⟨S_, .f32⟩
  | .hbm, ⟨37, _⟩ => ⟨S4x1x1, .f32⟩
  | .hbm, ⟨38, _⟩ => ⟨S4x1x1, .f32⟩
  | .hbm, ⟨39, _⟩ => ⟨S4x1x4096, .f32⟩
  | .hbm, ⟨40, _⟩ => ⟨S4x1x4096, .f32⟩
  | .hbm, ⟨41, _⟩ => ⟨S_, .f32⟩
  | .hbm, ⟨42, _⟩ => ⟨S4x1x1, .f32⟩
  | .hbm, ⟨43, _⟩ => ⟨S4x1x1, .f32⟩
  | .hbm, ⟨44, _⟩ => ⟨S4x1x1, .f32⟩
  | .hbm, ⟨45, _⟩ => ⟨S4x1x4096, .f32⟩
  | .hbm, ⟨46, _⟩ => ⟨S4x1x4096, .f32⟩
  | .hbm, ⟨47, _⟩ => ⟨S1x1x4096, .f32⟩
  | .hbm, ⟨48, _⟩ => ⟨S4x1x4096, .f32⟩
  | .hbm, ⟨49, _⟩ => ⟨S4x1x4096, .f32⟩
  | .hbm, ⟨50, _⟩ => ⟨S1x1x4096, .f32⟩
  | .hbm, ⟨51, _⟩ => ⟨S4x1x4096, .f32⟩
  | .hbm, ⟨52, _⟩ => ⟨S4x1x4096, .f32⟩
  | .hbm, ⟨53, _⟩ => ⟨S_, .f32⟩
  | .hbm, ⟨54, _⟩ => ⟨S8, .f32⟩
  | .hbm, ⟨55, _⟩ => ⟨S8x1, .f32⟩
  | .hbm, ⟨56, _⟩ => ⟨S_, .f32⟩
  | .hbm, ⟨57, _⟩ => ⟨S8x1, .f32⟩
  | .hbm, ⟨58, _⟩ => ⟨S8x1, .f32⟩
  | .hbm, ⟨59, _⟩ => ⟨S8x4096, .f32⟩
  | .hbm, ⟨60, _⟩ => ⟨S8x4096, .f32⟩
  | .hbm, ⟨61, _⟩ => ⟨S8x4096, .f32⟩
  | .hbm, ⟨62, _⟩ => ⟨S_, .f32⟩
  | .hbm, ⟨63, _⟩ => ⟨S8, .f32⟩
  | .hbm, ⟨64, _⟩ => ⟨S8x1, .f32⟩
  | .hbm, ⟨65, _⟩ => ⟨S_, .f32⟩
  | .hbm, ⟨66, _⟩ => ⟨S8x1, .f32⟩
  | .hbm, ⟨67, _⟩ => ⟨S8x1, .f32⟩
  | .hbm, ⟨68, _⟩ => ⟨S8x4096, .f32⟩
  | .hbm, ⟨69, _⟩ => ⟨S8x4096, .f32⟩
  | .hbm, ⟨70, _⟩ => ⟨S_, .f32⟩
  | .hbm, ⟨71, _⟩ => ⟨S8x1, .f32⟩
  | .hbm, ⟨72, _⟩ => ⟨S8x1, .f32⟩
  | .hbm, ⟨73, _⟩ => ⟨S8x1, .f32⟩
  | .hbm, ⟨74, _⟩ => ⟨S8x4096, .f32⟩
  | .hbm, ⟨75, _⟩ => ⟨S8x4096, .f32⟩
  | .hbm, ⟨76, _⟩ => ⟨S1x4096, .f32⟩
  | .hbm, ⟨77, _⟩ => ⟨S8x4096, .f32⟩
  | .hbm, ⟨78, _⟩ => ⟨S8x4096, .f32⟩
  | .hbm, ⟨79, _⟩ => ⟨S1x4096, .f32⟩
  | .hbm, ⟨80, _⟩ => ⟨S8x4096, .f32⟩
  | .hbm, ⟨81, _⟩ => ⟨S8x4096, .f32⟩
  | .hbm, ⟨82, _⟩ => ⟨S4x1x8, .f32⟩
  | .hbm, ⟨83, _⟩ => ⟨S1x1x8, .f32⟩
  | .hbm, ⟨84, _⟩ => ⟨S4x1x8, .f32⟩
  | .hbm, ⟨85, _⟩ => ⟨S4x1x8, .f32⟩
  | .hbm, ⟨86, _⟩ => ⟨S_, .f32⟩
  | .hbm, ⟨87, _⟩ => ⟨S4x1x8, .f32⟩
  | .hbm, ⟨88, _⟩ => ⟨S4x1x8, .f32⟩
  | .hbm, ⟨89, _⟩ => ⟨S_, .f32⟩
  | .hbm, ⟨90, _⟩ => ⟨S4x1, .f32⟩
  | .hbm, ⟨91, _⟩ => ⟨S_, .f32⟩
  | .hbm, ⟨92, _⟩ => ⟨S4x1, .f32⟩
  | .hbm, ⟨93, _⟩ => ⟨S4x1, .f32⟩
  | .hbm, ⟨94, _⟩ => ⟨S4x1x1, .f32⟩
  | .hbm, ⟨95, _⟩ => ⟨S4x1x8, .f32⟩
  | .hbm, ⟨96, _⟩ => ⟨S4x1x8, .f32⟩
  | .hbm, ⟨97, _⟩ => ⟨S4x1x8, .f32⟩
  | .hbm, ⟨98, _⟩ => ⟨S_, .f32⟩
  | .hbm, ⟨99, _⟩ => ⟨S4x1, .f32⟩
  | .hbm, ⟨100, _⟩ => ⟨S4x1x1, .f32⟩
  | .hbm, ⟨101, _⟩ => ⟨S4x1x8, .f32⟩
  | .hbm, ⟨102, _⟩ => ⟨S4x1x8, .f32⟩
  | .hbm, ⟨103, _⟩ => ⟨S_, .f32⟩
  | .hbm, ⟨104, _⟩ => ⟨S1, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_7 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_cst_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_12 : Ref sig .tc := ⟨.hbm, 86, rfl⟩
abbrev main_v64 : Ref sig .tc := ⟨.hbm, 87, rfl⟩
abbrev main_v65 : Ref sig .tc := ⟨.hbm, 88, rfl⟩
abbrev main_cst_13 : Ref sig .tc := ⟨.hbm, 89, rfl⟩
abbrev main_v66 : Ref sig .tc := ⟨.hbm, 90, rfl⟩
abbrev main_cst_14 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_cst_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_16 : Ref sig .tc := ⟨.hbm, 103, rfl⟩
abbrev main_v77 : Ref sig .tc := ⟨.hbm, 104, rfl⟩

abbrev nD : Nat := 1
abbrev τ : Topo := Topo.v7x

variable {F : FTy → Type} [FloatOps F]

class Facts₀ : Prop where
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d1 : S4x4096x4096.ReducesTo [1] S4x4096
  h_S_ : 0 < S_.numel
  bcast_S4x4096_S4x1x4096_0_2 : S4x4096.BroadcastsInDim S4x1x4096 (![0, 2] : Fin 2 → Fin S4x1x4096.rank)
  reducesTo_S4x1x4096_S4x1_d2 : S4x1x4096.ReducesTo [2] S4x1
  bcast_S4x1_S4x1x1_0_1 : S4x1.BroadcastsInDim S4x1x1 (![0, 1] : Fin 2 → Fin S4x1x1.rank)
  bcast_S_S4x1x1 : S_.BroadcastsInDim S4x1x1 (![] : Fin 0 → Fin S4x1x1.rank)
  bcast_S4x1x1_S4x1x4096_0_1_2 : S4x1x1.BroadcastsInDim S4x1x4096 (![0, 1, 2] : Fin 3 → Fin S4x1x4096.rank)
  bcast_S4096_S1x1x4096_2 : S4096.BroadcastsInDim S1x1x4096 (![2] : Fin 1 → Fin S1x1x4096.rank)
  bcast_S1x1x4096_S4x1x4096_0_1_2 : S1x1x4096.BroadcastsInDim S4x1x4096 (![0, 1, 2] : Fin 3 → Fin S4x1x4096.rank)
  reducesTo_S8x4096_S8_d1 : S8x4096.ReducesTo [1] S8
  bcast_S8_S8x1_0 : S8.BroadcastsInDim S8x1 (![0] : Fin 1 → Fin S8x1.rank)
  bcast_S_S8x1 : S_.BroadcastsInDim S8x1 (![] : Fin 0 → Fin S8x1.rank)
  bcast_S8x1_S8x4096_0_1 : S8x1.BroadcastsInDim S8x4096 (![0, 1] : Fin 2 → Fin S8x4096.rank)
  bcast_S4096_S1x4096_1 : S4096.BroadcastsInDim S1x4096 (![1] : Fin 1 → Fin S1x4096.rank)
  bcast_S1x4096_S8x4096_0_1 : S1x4096.BroadcastsInDim S8x4096 (![0, 1] : Fin 2 → Fin S8x4096.rank)
  bcast_S8_S1x1x8_2 : S8.BroadcastsInDim S1x1x8 (![2] : Fin 1 → Fin S1x1x8.rank)
  bcast_S1x1x8_S4x1x8_0_1_2 : S1x1x8.BroadcastsInDim S4x1x8 (![0, 1, 2] : Fin 3 → Fin S4x1x8.rank)
  bcast_S_S4x1x8 : S_.BroadcastsInDim S4x1x8 (![] : Fin 0 → Fin S4x1x8.rank)
  reducesTo_S4x1x8_S4x1_d2 : S4x1x8.ReducesTo [2] S4x1
  bcast_S_S4x1 : S_.BroadcastsInDim S4x1 (![] : Fin 0 → Fin S4x1.rank)
  bcast_S4x1x1_S4x1x8_0_1_2 : S4x1x1.BroadcastsInDim S4x1x8 (![0, 1, 2] : Fin 3 → Fin S4x1x8.rank)
  bcast_S_S1 : S_.BroadcastsInDim S1 (![] : Fin 0 → Fin S1.rank)
  dot_S4x1x4096_S8x4096_S4x1x8_2_1_01_0_n_n_wf : DotDims.WF S4x1x4096 S8x4096 S4x1x8 [2] [1] [0, 1] [0] [] []

variable [Facts₀]

def dot_S4x1x4096_S8x4096_S4x1x8_2_1_01_0_n_n : DotDims S4x1x4096 S8x4096 S4x1x8 where
  lhsContracting := [2]
  rhsContracting := [1]
  lhsNonContracting := [0, 1]
  rhsNonContracting := [0]
  lhsBatch := []
  rhsBatch := []
  wf := dot_S4x1x4096_S8x4096_S4x1x8_2_1_01_0_n_n_wf

class Facts : Prop extends Facts₀ where

variable [Facts]
-- ==== Proof.RouterSpec.lean ====
/-
  The routing distribution as one function on the extended reals.

  For a batch row b the masked average over the sequence axis is, per feature d, the quotient of
  S[b,d] = Σ_r x[b,r,d]·mask[b,r] by N[b,d] = Σ_r [x[b,r,d]·mask[b,r] ≠ 0], where mask = pad·inst read as a float.
  A row v of width n is normalised as ((v_d − μ)·(σ² + ε)^(−1/2))·w_d + β_d with μ = (Σ v)/4096 and
  σ² = (Σ (v − μ)²)/4096. The logit of class k is (Σ_d h_d·W[k,d] + bias_k)/1, and the distribution is
  exp(l_k − M) / Σ_j exp(l_j − M) with M the maximum of the logits taken from −∞. Every literal is kept as the
  f32 word the two programs share, so that nothing is evaluated.
-/
import Idealize.ShloMosaic.PureOps.Ideal.Laws
import Idealize.ShloMosaic.Lib.ValueIdx

noncomputable section

namespace Cert.Router

open Idealize.ShloMosaic Idealize.ShloMosaic.ValueIdx

/-- The words the two programs share: 0, 4096, 1e-5 (as f32), 1, −∞. -/
abbrev zero32 : EReal := Ideal.ofBits .f32 0x00000000#32
abbrev width : EReal := Ideal.ofBits .f32 0x45800000#32
abbrev eps : EReal := Ideal.ofBits .f32 0x3727C5AC#32
abbrev temp : EReal := Ideal.ofBits .f32 0x3F800000#32
abbrev negInf : EReal := Ideal.ofBits .f32 0xFF800000#32

/-- The mean of a row: its sum over 4096. -/
def mean {n : ℕ} (v : Fin n → EReal) : EReal := Ideal.div (∑ k, v k) width

/-- The biased variance of a row: the sum of the squared deviations over 4096. -/
def variance {n : ℕ} (v : Fin n → EReal) : EReal := Ideal.div (∑ k, (v k - mean v) * (v k - mean v)) width

/-- A row normalised, scaled by w and shifted by β. -/
def normed {n : ℕ} (v w β : Fin n → EReal) (d : Fin n) : EReal :=
  (v d - mean v) * Ideal.rsqrt (variance v + eps) * w d + β d

/-- The logit of class k: the product of the normalised row with the k-th normalised weight row, plus the bias,
    over the temperature 1. -/
def logit {n c : ℕ} (h : Fin n → EReal) (W : Fin c → Fin n → EReal) (bias : Fin c → EReal) (k : Fin c) : EReal :=
  Ideal.div (∑ d, h d * W k d + bias k) temp

/-- The maximum of the logits, taken from −∞ (and once more against −∞, as both programs do). -/
def peak {c : ℕ} (l : Fin c → EReal) : EReal := max negInf ((Finset.univ : Finset (Fin c)).fold max negInf l)

/-- The softmax of the logits. -/
def softmax {c : ℕ} (l : Fin c → EReal) (k : Fin c) : EReal :=
  Ideal.div (Ideal.exp (l k - peak l)) (∑ j, Ideal.exp (l j - peak l))

/-- From the per-feature sums S and counts N of one batch row to its distribution over the classes. -/
def tail {n c : ℕ} (S N w₁ β₁ w₂ β₂ : Fin n → EReal) (ffw : Fin c → Fin n → EReal) (bias : Fin c → EReal) (k : Fin c) : EReal :=
  softmax (logit (normed (fun d => Ideal.div (S d) (N d)) w₁ β₁) (fun k' => normed (ffw k') w₂ β₂) bias) k

/-- 1 where a value differs from 0, else 0: the bit of the comparison read as a number. -/
def nonzero (a : EReal) : EReal := (((Ideal.cmp .une a zero32).toNat : ℝ) : EReal)

/-- A bit widened to 32 bits and read signed is the bit read unsigned. -/
theorem bit_signed (b : BitVec 1) : ((b.setWidth 32).toInt : ℝ) = ((b.toNat : ℕ) : ℝ) := by
  have h : ∀ b : BitVec 1, (b.setWidth 32).toInt = (b.toNat : ℤ) := by decide
  rw [h b]; push_cast; rfl

/-- The ordered "not equal" widened and read signed is the same indicator (there is nothing unordered among the
    extended reals). -/
theorem nonzero_ordered (a : EReal) :
    (((((Ideal.cmp .one a zero32).setWidth 32).toInt : ℝ)) : EReal) = nonzero a := by
  unfold nonzero
  rw [bit_signed]
  rfl

end Cert.Router

end
-- ==== Proof.LibIdxSums.lean ====
/-
  Sums over an index set written by coordinates, a sum over `Fin (T * n)` written by blocks of `n`, and a running
  total written as a finite sum. General facts over any additive commutative monoid.
-/
import Mathlib.Algebra.BigOperators.Fin
import Mathlib.Logic.Equiv.Fin.Basic
import Idealize.ShloMosaic.Lib.ValueIdx

open scoped BigOperators

namespace Cert.LibIdxSums

open Idealize.ShloMosaic Idealize.ShloMosaic.ValueIdx

variable {M : Type*} [AddCommMonoid M]

/-! ## Sums over rank-3 and rank-4 index sets, by coordinates -/

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- A sum over a rank-3 index set is the triple sum over the coordinates. -/
theorem sum_idx3 {n0 n1 n2 : Nat} (f : (⟨3, ![n0, n1, n2]⟩ : Shape).Idx → M) :
    ∑ j, f j = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-- A rank-4 index set is the product of its four coordinate ranges. -/
def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- A sum over a rank-4 index set is the fourfold sum over the coordinates. -/
theorem sum_idx4 {n0 n1 n2 n3 : Nat} (f : (⟨4, ![n0, n1, n2, n3]⟩ : Shape).Idx → M) :
    ∑ j, f j = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## A sum over `Fin (T * n)` by `T` blocks of `n` -/

/-- Entry `b` of block `t` lies below `T * n`. -/
theorem block_lt {T n : ℕ} (t : Fin T) (b : Fin n) : t.val * n + b.val < T * n := by
  have ht := t.isLt
  have hb := b.isLt
  calc t.val * n + b.val < t.val * n + n := by omega
    _ = (t.val + 1) * n := by ring
    _ ≤ T * n := Nat.mul_le_mul_right n ht

/-- A sum over `Fin (T * n)` is the sum over the `T` blocks of the sums over each block's `n` entries:
    `∑_B h B = ∑_t ∑_b h (t·n + b)`. -/
theorem sum_fin_blocks (T n : ℕ) (h : Fin (T * n) → M) :
    ∑ B : Fin (T * n), h B = ∑ t : Fin T, ∑ b : Fin n, h ⟨t.val * n + b.val, block_lt t b⟩ := by
  rw [← Equiv.sum_comp (finProdFinEquiv (m := T) (n := n)) h, Fintype.sum_prod_type]
  refine Finset.sum_congr rfl fun t _ => Finset.sum_congr rfl fun b _ => ?_
  refine congrArg h (Fin.ext ?_)
  show b.val + n * t.val = t.val * n + b.val
  rw [Nat.mul_comm, Nat.add_comm]

/-- 256 entries as 128 blocks of 2: `∑_B h B = ∑_{t<128} ∑_{b<2} h (2t + b)`. -/
theorem sum_fin256_blocks2 (h : Fin 256 → M) :
    ∑ B, h B = ∑ t : Fin 128, ∑ b : Fin 2, h ⟨2 * t.val + b.val, by omega⟩ := by
  refine (sum_fin_blocks 128 2 h).trans ?_
  refine Finset.sum_congr rfl fun t _ => Finset.sum_congr rfl fun b _ => ?_
  exact congrArg h (Fin.ext (by show t.val * 2 + b.val = 2 * t.val + b.val; omega))

/-- 256 entries as 8 blocks of 32: `∑_B h B = ∑_{t<8} ∑_{b<32} h (32t + b)`. -/
theorem sum_fin256_blocks32 (h : Fin 256 → M) :
    ∑ B, h B = ∑ t : Fin 8, ∑ b : Fin 32, h ⟨32 * t.val + b.val, by omega⟩ := by
  refine (sum_fin_blocks 8 32 h).trans ?_
  refine Finset.sum_congr rfl fun t _ => Finset.sum_congr rfl fun b _ => ?_
  exact congrArg h (Fin.ext (by show t.val * 32 + b.val = 32 * t.val + b.val; omega))

/-! ## A running total is a finite sum -/

/-- A sequence that starts at `z + a 0` and adds `a (n + 1)` at step `n + 1` is `z` plus the partial sums of `a`:
    `A n = z + ∑_{t ≤ n} a t`. -/
theorem chain_eq_sum (A a : ℕ → M) (z : M) (h0 : A 0 = z + a 0) (hs : ∀ n, A (n + 1) = A n + a (n + 1)) :
    ∀ n, A n = z + ∑ t ∈ Finset.range (n + 1), a t := by
  intro n
  induction n with
  | zero => rw [h0, Finset.sum_range_one]
  | succ k ih => rw [hs, ih, Finset.sum_range_succ a (k + 1), add_assoc]

/-- A sum over the naturals below `N` is the sum over `Fin N` of the values. -/
theorem sum_range_eq_sum_fin (N : ℕ) (a : ℕ → M) : ∑ t ∈ Finset.range N, a t = ∑ t : Fin N, a t.val :=
  Finset.sum_range a

end Cert.LibIdxSums
-- ==== Proof.RouterArrays.lean ====
/-
  The routing distribution as one function of the argument arrays, index by index.

  mask[b,r] is the product of the two integer masks read as a float; the masked entry is x[b,r,d]·mask[b,r];
  S[b,d] and N[b,d] are its sum and its count of non-zeros over the 4096 sequence positions; the result at (b, ·, k)
  is the distribution of batch row b at class k. The sum over the 4096 positions is also the sum over 16 blocks of
  256 consecutive positions, which is how a walk over the sequence axis in 16 steps collects it.
-/
import proofs.«162364_j71889162600594_2_alg».proof.Proof.RouterSpec
import proofs.«162364_j71889162600594_2_alg».proof.Proof.LibIdxSums

noncomputable section

namespace Cert.Router

open Idealize.ShloMosaic Idealize.ShloMosaic.ValueIdx

/-- The mask at (b, r). -/
def maskAt (a₁ a₂ : (⟨2, ![4, 4096]⟩ : Shape).Idx → BitVec 32) (b : Fin 4) (r : Fin 4096) : EReal :=
  FloatOps.sitofp (F := Ideal) .f32 (IntOp.muli (a₁ (ix2 b r)) (a₂ (ix2 b r)))

/-- The masked entry at (b, r, d). -/
def maskedAt (x : (⟨3, ![4, 4096, 4096]⟩ : Shape).Idx → EReal) (a₁ a₂ : (⟨2, ![4, 4096]⟩ : Shape).Idx → BitVec 32)
    (b : Fin 4) (r : Fin 4096) (d : Fin 4096) : EReal :=
  x (ix3 b r d) * maskAt a₁ a₂ b r

/-- S[b,d]: the masked sum over the sequence axis. -/
def sums (x : (⟨3, ![4, 4096, 4096]⟩ : Shape).Idx → EReal) (a₁ a₂ : (⟨2, ![4, 4096]⟩ : Shape).Idx → BitVec 32)
    (b : Fin 4) (d : Fin 4096) : EReal :=
  ∑ r : Fin 4096, maskedAt x a₁ a₂ b r d

/-- N[b,d]: the count of non-zero masked entries over the sequence axis. -/
def counts (x : (⟨3, ![4, 4096, 4096]⟩ : Shape).Idx → EReal) (a₁ a₂ : (⟨2, ![4, 4096]⟩ : Shape).Idx → BitVec 32)
    (b : Fin 4) (d : Fin 4096) : EReal :=
  ∑ r : Fin 4096, nonzero (maskedAt x a₁ a₂ b r d)

/-- The distribution of batch row b at class k. -/
def distAt (x : (⟨3, ![4, 4096, 4096]⟩ : Shape).Idx → EReal) (a₁ a₂ : (⟨2, ![4, 4096]⟩ : Shape).Idx → BitVec 32)
    (w₁ β₁ w₂ β₂ : (⟨1, ![4096]⟩ : Shape).Idx → EReal) (ffw : (⟨2, ![8, 4096]⟩ : Shape).Idx → EReal)
    (bias : (⟨1, ![8]⟩ : Shape).Idx → EReal) (b : Fin 4) (k : Fin 8) : EReal :=
  tail (sums x a₁ a₂ b) (counts x a₁ a₂ b) (fun d => w₁ (ix1 d)) (fun d => β₁ (ix1 d)) (fun d => w₂ (ix1 d))
    (fun d => β₂ (ix1 d)) (fun k' d => ffw (ix2 k' d)) (fun k' => bias (ix1 k')) k

/-- The result array [4, 1, 8]. -/
def dist (x : (⟨3, ![4, 4096, 4096]⟩ : Shape).Idx → EReal) (a₁ a₂ : (⟨2, ![4, 4096]⟩ : Shape).Idx → BitVec 32)
    (w₁ β₁ w₂ β₂ : (⟨1, ![4096]⟩ : Shape).Idx → EReal) (ffw : (⟨2, ![8, 4096]⟩ : Shape).Idx → EReal)
    (bias : (⟨1, ![8]⟩ : Shape).Idx → EReal) : (⟨3, ![4, 1, 8]⟩ : Shape).Idx → EReal :=
  fun j => distAt x a₁ a₂ w₁ β₁ w₂ β₂ ffw bias (j 0) (j 2)

theorem dist_at (x : (⟨3, ![4, 4096, 4096]⟩ : Shape).Idx → EReal) (a₁ a₂ : (⟨2, ![4, 4096]⟩ : Shape).Idx → BitVec 32)
    (w₁ β₁ w₂ β₂ : (⟨1, ![4096]⟩ : Shape).Idx → EReal) (ffw : (⟨2, ![8, 4096]⟩ : Shape).Idx → EReal)
    (bias : (⟨1, ![8]⟩ : Shape).Idx → EReal) (b : Fin 4) (u : Fin 1) (k : Fin 8) :
    dist x a₁ a₂ w₁ β₁ w₂ β₂ ffw bias (ix3 b u k) = distAt x a₁ a₂ w₁ β₁ w₂ β₂ ffw bias b k := rfl

/-- Position r of block s of the sequence axis. -/
abbrev seqPos (s : Fin 16) (r : Fin 256) : Fin 4096 := ⟨s.val * 256 + r.val, Cert.LibIdxSums.block_lt (T := 16) (n := 256) s r⟩

/-- A sum over the 4096 positions is the sum over the 16 blocks of the sums over each block's 256 positions. -/
theorem sum_seq_blocks (f : Fin 4096 → EReal) : ∑ R : Fin 4096, f R = ∑ s : Fin 16, ∑ r : Fin 256, f (seqPos s r) :=
  Cert.LibIdxSums.sum_fin_blocks 16 256 f

end Cert.Router

end
-- ==== Proof.LibRowMax3.lean ====
/-
  A maximum from `-∞` along the LAST axis of a rank-3 array, read at an index, on the extended reals.

  The host's `stablehlo.reduce` with a maximum body from the value of the pattern `0xFF800000` (`-∞`) along the third
  axis of an `[a, n, b]` array, at `(p, r)`, is the fold of `max` from `-∞` over the `b` entries `(p, r, ·)`. The reduced index
  `(p, r)` with the third coordinate `k` put back is `(p, r, k)`. (The rank-2 companion reads a row maximum of a matrix.)
-/
import Idealize.ShloMosaic.Lib.ValueIdx
import Idealize.ShloMosaic.PureOps.Ideal.Laws

noncomputable section

namespace Cert.Lib.RowMax3

open Idealize.ShloMosaic Idealize.ShloMosaic.ValueIdx

/-- The reduced index `(p, r)` with the last coordinate `k` put back is `(p, r, k)`. -/
theorem lift_last {a n b : ℕ} (hr : (⟨3, ![a, n, b]⟩ : Shape).Reduces [2] ⟨2, ![a, n]⟩) (p : Fin a) (r : Fin n)
    (k : Fin ((⟨3, ![a, n, b]⟩ : Shape).size 2)) : hr.lift (ix2 p r) k = ix3 p r (⟨k.val, k.isLt⟩ : Fin b) := by
  funext d; apply Fin.ext
  match d with
  | ⟨0, _⟩ => rfl
  | ⟨1, _⟩ => rfl
  | ⟨2, _⟩ => rfl

/-- The host's reduce with a maximum body from `-∞` along the last axis, at `(p, r)`, is the fold of `max` from `-∞`
    over the entries `(p, r, ·)`. -/
theorem hostLastMax_apply {a n b : ℕ} (z : FVec Ideal ⟨3, ![a, n, b]⟩ .f32)
    (hrt : (⟨3, ![a, n, b]⟩ : Shape).ReducesTo [2] ⟨2, ![a, n]⟩) (hr : (⟨3, ![a, n, b]⟩ : Shape).Reduces [2] ⟨2, ![a, n]⟩)
    (hu : 0 < (⟨0, ![]⟩ : Shape).numel) (p : Fin a) (r : Fin n) :
    Host.reduce FloatOps.maximumf z (constant (F := Ideal) ⟨0, ![]⟩ .f32 0xFF800000#32) hrt hu (ix2 p r)
      = (Finset.univ : Finset (Fin b)).fold max (Ideal.ofBits .f32 0xFF800000#32) (fun k => z (ix3 p r k)) := by
  rw [Host.reduce_eq_fold_single FloatOps.maximumf z _ hrt hr hu]
  have hf : (z ∘ hr.lift (ix2 p r)) = fun k : Fin b => z (ix3 p r k) := funext fun k => congrArg z (lift_last hr p r k)
  exact congrArg (fun f => Finset.fold max (Ideal.ofBits .f32 0xFF800000#32) f (Finset.univ : Finset (Fin b))) hf

end Cert.Lib.RowMax3

end
-- ==== Proof.RefIsSpec.lean ====
/-
  The reference computes the routing distribution.

  Its stages are read at coordinates, in the order it computes them: the masked entries, their sum and non-zero count
  over the sequence axis (a sum from 0 is the sum), the quotient rows, the two row normalisations (means and biased
  variances kept as unit-axis columns and spread back), the contraction over the features, the bias, the temperature,
  the maximum from −∞, the exponentials, their sum, the quotient. Each layout step only renames coordinates.
-/
import proofs.«162364_j71889162600594_2_alg».proof.Proof.Gen.ReferenceIdeal.Read
import proofs.«162364_j71889162600594_2_alg».proof.Proof.RouterArrays
import proofs.«162364_j71889162600594_2_alg».proof.Proof.LibRowMax3

noncomputable section

namespace Cert.ReferenceIdeal.RefValue

open Cert.ReferenceIdeal Cert.ReferenceIdeal.Gen Cert.ReferenceIdeal.Read Cert.Router Idealize.ShloMosaic Idealize.ShloMosaic.ValueIdx

local macro "coords1" : term => `(funext fun a => by match a with | ⟨0, _⟩ => rfl)
local macro "coords2" : term => `(funext fun a => by match a with | ⟨0, _⟩ => rfl | ⟨1, _⟩ => rfl)
local macro "coords3" : term => `(funext fun a => by match a with | ⟨0, _⟩ => rfl | ⟨1, _⟩ => rfl | ⟨2, _⟩ => rfl)

variable (x0 : (⟨S4x4096x4096, .f32⟩ : BufTy).Contents (Elt Ideal)) (x1 x2 : (⟨S4x4096, .i32⟩ : BufTy).Contents (Elt Ideal))
  (x3 x4 x5 x6 : (⟨S4096, .f32⟩ : BufTy).Contents (Elt Ideal)) (x7 : (⟨S8x4096, .f32⟩ : BufTy).Contents (Elt Ideal))
  (x8 : (⟨S8, .f32⟩ : BufTy).Contents (Elt Ideal))

/-- A sum from the zero word is the sum. -/
theorem zero_start (s : EReal) : (FloatOps.ofBits (F := Ideal) .f32 0x00000000#32 : EReal) + s = s := by
  rw [Ideal.ofBits_def, Ideal.ofBits_zero_f32, zero_add]

/-! ## The masked sums and counts -/

theorem masked_at (b : Fin 4) (r d : Fin 4096) : val_main_v4 (F := Ideal) x0 x1 x2 (ix3 b r d) = maskedAt x0 x1 x2 b r d := by
  rw [val_main_v4_apply, val_main_v3_apply, val_main_v2_apply, val_main_v1_apply, val_main_v0_apply,
    show idx_main_v2 (idx_main_v3 (ix3 b r d)) = ix2 b r from coords2]
  rfl

theorem sums_at (b : Fin 4) (d : Fin 4096) : val_main_v9 (F := Ideal) x0 x1 x2 (ix2 b d) = sums x0 x1 x2 b d := by
  rw [val_main_v9_apply, val_main_cst_1_apply, zero_start]
  refine Finset.sum_congr rfl fun r _ => ?_
  rw [show idx_main_v9 (ix2 b d) r = ix3 b r d from coords3, masked_at]

theorem counts_at (b : Fin 4) (d : Fin 4096) : val_main_v8 (F := Ideal) x0 x1 x2 (ix2 b d) = counts x0 x1 x2 b d := by
  rw [val_main_v8_apply, val_main_cst_0_apply, zero_start]
  refine Finset.sum_congr rfl fun r _ => ?_
  rw [show idx_main_v8 (ix2 b d) r = ix3 b r d from coords3, val_main_v7_apply, val_main_v6_apply, val_main_v5_apply,
    val_main_cst_apply, masked_at]
  rfl

/-- Row b of the quotient. -/
abbrev quot (b : Fin 4) : Fin 4096 → EReal := fun d => Ideal.div (sums x0 x1 x2 b d) (counts x0 x1 x2 b d)

theorem quot_at (b : Fin 4) (u : Fin 1) (d : Fin 4096) : val_main_v11 (F := Ideal) x0 x1 x2 (ix3 b u d) = quot x0 x1 x2 b d := by
  rw [val_main_v11_apply, show idx_main_v11 (ix3 b u d) = ix2 b d from coords2, val_main_v10_apply, sums_at, counts_at]
  rfl

/-! ## The quotient rows normalised -/

theorem quotMean_at (b : Fin 4) (u u' : Fin 1) : val_main_v15 (F := Ideal) x0 x1 x2 (ix3 b u u') = mean (quot x0 x1 x2 b) := by
  rw [val_main_v15_apply, val_main_v14_apply, val_main_cst_3_apply, val_main_v13_apply,
    show idx_main_v13 (ix3 b u u') = ix2 b (0 : Fin 1) from coords2, val_main_v12_apply, val_main_cst_2_apply, zero_start]
  simp only [show ∀ k, idx_main_v12 (ix2 b (0 : Fin 1)) k = ix3 b (0 : Fin 1) k from fun k => coords3, quot_at]
  rfl

theorem quotCentred_at (b : Fin 4) (u : Fin 1) (d : Fin 4096) :
    val_main_v17 (F := Ideal) x0 x1 x2 (ix3 b u d) = quot x0 x1 x2 b d - mean (quot x0 x1 x2 b) := by
  rw [val_main_v17_apply, quot_at, val_main_v16_apply,
    show idx_main_v16 (ix3 b u d) = ix3 b (0 : Fin 1) (0 : Fin 1) from coords3, quotMean_at]
  rfl

theorem quotCentred_at' (b : Fin 4) (u : Fin 1) (d : Fin 4096) :
    val_main_v24 (F := Ideal) x0 x1 x2 (ix3 b u d) = quot x0 x1 x2 b d - mean (quot x0 x1 x2 b) := by
  rw [val_main_v24_apply, quot_at, val_main_v23_apply,
    show idx_main_v23 (ix3 b u d) = ix3 b (0 : Fin 1) (0 : Fin 1) from coords3, quotMean_at]
  rfl

theorem quotVar_at (b : Fin 4) (u u' : Fin 1) : val_main_v22 (F := Ideal) x0 x1 x2 (ix3 b u u') = variance (quot x0 x1 x2 b) := by
  rw [val_main_v22_apply, val_main_v21_apply, val_main_cst_5_apply, val_main_v20_apply,
    show idx_main_v20 (ix3 b u u') = ix2 b (0 : Fin 1) from coords2, val_main_v19_apply, val_main_cst_4_apply, zero_start]
  simp only [show ∀ k, idx_main_v19 (ix2 b (0 : Fin 1)) k = ix3 b (0 : Fin 1) k from fun k => coords3, val_main_v18_apply,
    quotCentred_at]
  rfl

theorem quotNormed_at (b : Fin 4) (u : Fin 1) (d : Fin 4096) :
    val_main_v35 (F := Ideal) x0 x1 x2 x3 x4 (ix3 b u d)
      = normed (quot x0 x1 x2 b) (fun k => x3 (ix1 k)) (fun k => x4 (ix1 k)) d := by
  rw [val_main_v35_apply, val_main_v32_apply, val_main_v29_apply, quotCentred_at', val_main_v28_apply,
    show idx_main_v28 (ix3 b u d) = ix3 b (0 : Fin 1) (0 : Fin 1) from coords3, val_main_v27_apply, val_main_v26_apply,
    quotVar_at, val_main_v25_apply, val_main_cst_6_apply, val_main_v31_apply, val_main_v30_apply,
    show idx_main_v30 (idx_main_v31 (ix3 b u d)) = ix1 d from coords1, val_main_v34_apply, val_main_v33_apply,
    show idx_main_v33 (idx_main_v34 (ix3 b u d)) = ix1 d from coords1]
  rfl

/-! ## The weight rows normalised -/

/-- Weight row k. -/
abbrev wrow (k : Fin 8) : Fin 4096 → EReal := fun d => x7 (ix2 k d)

theorem weightMean_at (k : Fin 8) (u : Fin 1) : val_main_v39 (F := Ideal) x7 (ix2 k u) = mean (wrow x7 k) := by
  rw [val_main_v39_apply, val_main_v38_apply, val_main_cst_8_apply, val_main_v37_apply,
    show idx_main_v37 (ix2 k u) = ix1 k from coords1, val_main_v36_apply, val_main_cst_7_apply, zero_start]
  simp only [show ∀ d, idx_main_v36 (ix1 k) d = ix2 k d from fun d => coords2]
  rfl

theorem weightCentred_at (k : Fin 8) (d : Fin 4096) :
    val_main_v41 (F := Ideal) x7 (ix2 k d) = wrow x7 k d - mean (wrow x7 k) := by
  rw [val_main_v41_apply, val_main_v40_apply, show idx_main_v40 (ix2 k d) = ix2 k (0 : Fin 1) from coords2, weightMean_at]
  rfl

theorem weightCentred_at' (k : Fin 8) (d : Fin 4096) :
    val_main_v48 (F := Ideal) x7 (ix2 k d) = wrow x7 k d - mean (wrow x7 k) := by
  rw [val_main_v48_apply, val_main_v47_apply, show idx_main_v47 (ix2 k d) = ix2 k (0 : Fin 1) from coords2, weightMean_at]
  rfl

theorem weightVar_at (k : Fin 8) (u : Fin 1) : val_main_v46 (F := Ideal) x7 (ix2 k u) = variance (wrow x7 k) := by
  rw [val_main_v46_apply, val_main_v45_apply, val_main_cst_10_apply, val_main_v44_apply,
    show idx_main_v44 (ix2 k u) = ix1 k from coords1, val_main_v43_apply, val_main_cst_9_apply, zero_start]
  simp only [show ∀ d, idx_main_v43 (ix1 k) d = ix2 k d from fun d => coords2, val_main_v42_apply, weightCentred_at]
  rfl

theorem weightNormed_at (k : Fin 8) (d : Fin 4096) :
    val_main_v59 (F := Ideal) x5 x6 x7 (ix2 k d) = normed (wrow x7 k) (fun k' => x5 (ix1 k')) (fun k' => x6 (ix1 k')) d := by
  rw [val_main_v59_apply, val_main_v56_apply, val_main_v53_apply, weightCentred_at', val_main_v52_apply,
    show idx_main_v52 (ix2 k d) = ix2 k (0 : Fin 1) from coords2, val_main_v51_apply, val_main_v50_apply, weightVar_at,
    val_main_v49_apply, val_main_cst_11_apply, val_main_v55_apply, val_main_v54_apply,
    show idx_main_v54 (idx_main_v55 (ix2 k d)) = ix1 d from coords1, val_main_v58_apply, val_main_v57_apply,
    show idx_main_v57 (idx_main_v58 (ix2 k d)) = ix1 d from coords1]
  rfl

/-! ## The logits and their softmax -/

/-- Row b's logits. -/
abbrev logits (b : Fin 4) : Fin 8 → EReal :=
  logit (normed (quot x0 x1 x2 b) (fun k => x3 (ix1 k)) (fun k => x4 (ix1 k)))
    (fun k' => normed (wrow x7 k') (fun k => x5 (ix1 k)) (fun k => x6 (ix1 k))) (fun k' => x8 (ix1 k'))

theorem logits_at (b : Fin 4) (u : Fin 1) (k : Fin 8) :
    val_main_v65 (F := Ideal) x0 x1 x2 x3 x4 x5 x6 x7 x8 (ix3 b u k) = logits x0 x1 x2 x3 x4 x5 x6 x7 x8 b k := by
  rw [val_main_v65_apply, val_main_v64_apply, val_main_cst_12_apply, val_main_v63_apply, val_main_v62_apply,
    val_main_v61_apply, show idx_main_v61 (idx_main_v62 (ix3 b u k)) = ix1 k from coords1, val_main_v60_apply]
  simp only [show ∀ d, lidx_main_v60 (ix3 b u k) d = ix3 b u d from fun d => coords3,
    show ∀ d, ridx_main_v60 (ix3 b u k) d = ix2 k d from fun d => coords2, quotNormed_at, weightNormed_at]
  rfl

theorem peak_at (b : Fin 4) (u : Fin 1) :
    val_main_v68 (F := Ideal) x0 x1 x2 x3 x4 x5 x6 x7 x8 (ix2 b u) = peak (logits x0 x1 x2 x3 x4 x5 x6 x7 x8 b) := by
  rw [val_main_v68_apply, val_main_v67_apply, val_main_cst_14_apply]
  unfold val_main_v66 val_main_cst_13
  rw [Cert.Lib.RowMax3.hostLastMax_apply _ reducesTo_S4x1x8_S4x1_d2 (by decide) h_S_ b u]
  simp only [logits_at]
  rfl

theorem shifted_at (b : Fin 4) (u : Fin 1) (k : Fin 8) :
    val_main_v72 (F := Ideal) x0 x1 x2 x3 x4 x5 x6 x7 x8 (ix3 b u k)
      = Ideal.exp (logits x0 x1 x2 x3 x4 x5 x6 x7 x8 b k - peak (logits x0 x1 x2 x3 x4 x5 x6 x7 x8 b)) := by
  rw [val_main_v72_apply, val_main_v71_apply, logits_at, val_main_v70_apply, val_main_v69_apply,
    show idx_main_v69 (idx_main_v70 (ix3 b u k)) = ix2 b (0 : Fin 1) from coords2, peak_at]
  rfl

theorem dist_at (b : Fin 4) (u : Fin 1) (k : Fin 8) :
    val_main_v76 (F := Ideal) x0 x1 x2 x3 x4 x5 x6 x7 x8 (ix3 b u k) = distAt x0 x1 x2 x3 x4 x5 x6 x7 x8 b k := by
  rw [val_main_v76_apply, shifted_at, val_main_v75_apply, val_main_v74_apply,
    show idx_main_v74 (idx_main_v75 (ix3 b u k)) = ix2 b (0 : Fin 1) from coords2, val_main_v73_apply, val_main_cst_15_apply,
    zero_start]
  simp only [show ∀ j, idx_main_v73 (ix2 b (0 : Fin 1)) j = ix3 b (0 : Fin 1) j from fun j => coords3, shifted_at]
  rfl

/-- The reference's result is the routing distribution of its arguments. -/
theorem result_eq : val_main_v76 (F := Ideal) x0 x1 x2 x3 x4 x5 x6 x7 x8 = dist x0 x1 x2 x3 x4 x5 x6 x7 x8 := by
  funext j
  obtain ⟨b, u, k, rfl⟩ : ∃ (b : Fin 4) (u : Fin 1) (k : Fin 8), j = ix3 b u k := ⟨j 0, j 1, j 2, eq_ix3 j⟩
  rw [dist_at, Cert.Router.dist_at]

end Cert.ReferenceIdeal.RefValue

end
-- ==== Proof.Pieces.lean ====
/-
  What one run of the body leaves behind, as the payloads of its stores.

  The body's stores each overwrite a whole buffer, so what a buffer holds afterwards is the last store's payload, and a
  load of a buffer the body has already stored into reads that payload back. At the first point of a batch block the
  running sum and count are "zero, then zero plus the block's contribution"; at every other point "what the point
  before left, plus the block's contribution"; and at the last point the output block is the tail of the computation
  applied to the sums and counts just stored. Stated for any float values.
-/
import proofs.«162364_j71889162600594_2_alg».proof.Proof.Gen.KernelIdeal.Frame
import Idealize.ShloMosaic.Lib.Pipeline.Value
import Idealize.ShloMosaic.Lib.Tactic

noncomputable section

namespace Cert.KernelIdeal.RouterValue

open Cert.KernelIdeal Cert.KernelIdeal.Gen Idealize.ShloMosaic Idealize.ShloMosaic.TcCoe Idealize.SL.Sem

variable {F : FTy → Type} [FloatOps F]

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

variable (c : Dev nD) (i : grid0.Coords) (arg2 : Memref sig .tc .vmem S2x256x4096 .f32) (harg2 : arg2.IsWhole) (arg3 : Memref sig .tc .vmem S2x256x1 .f32) (harg3 : arg3.IsWhole) (arg4 : Memref sig .tc .vmem S4096 .f32) (harg4 : arg4.IsWhole) (arg5 : Memref sig .tc .vmem S4096 .f32) (harg5 : arg5.IsWhole) (arg6 : Memref sig .tc .vmem S4096 .f32) (harg6 : arg6.IsWhole) (arg7 : Memref sig .tc .vmem S4096 .f32) (harg7 : arg7.IsWhole) (arg8 : Memref sig .tc .vmem S8x4096 .f32) (harg8 : arg8.IsWhole) (arg9 : Memref sig .tc .vmem S8 .f32) (harg9 : arg9.IsWhole) (arg10 : Memref sig .tc .vmem S2x1x8 .f32) (harg10 : arg10.IsWhole) (arg11 : Memref sig .tc .vmem S2x4096 .f32) (harg11 : arg11.IsWhole) (arg12 : Memref sig .tc .vmem S2x4096 .f32) (harg12 : arg12.IsWhole)

/-! ## A point in the middle of a batch block -/

theorem sum_B (hc0 : ¬cond0_0 i) (hc1 : ¬cond0_1 i) (x0 : Vec F S2x256x4096 .f32) (x1 : Vec F S2x256x1 .f32) (x2 : Vec F S4096 .f32) (x3 : Vec F S4096 .f32) (x4 : Vec F S4096 .f32) (x5 : Vec F S4096 .f32) (x6 : Vec F S8x4096 .f32) (x7 : Vec F S8 .f32) (xs0 xs1 : Vec F S2x4096 .f32) :
    sout0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay4 x0 x1 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  rw [View.canon_unit_zero hz2]
  simp only [View.readAt_eq_ld, harg2.read_unread, harg3.read_unread, harg4.read_unread, harg5.read_unread, harg6.read_unread, harg7.read_unread, harg8.read_unread, harg9.read_unread, harg11.read_unread, harg12.read_unread, View.ld_unit_zero (S := S2x256x4096) hz3, View.ld_unit_zero (S := S2x256x1) hz3, View.ld_unit_zero (S := S2x4096) hz2, View.ld_unit_zero (S := S4096) hz1, View.ld_unit_zero (S := S8x4096) hz2, View.ld_unit_zero (S := S8) hz1]

theorem count_B (hc0 : ¬cond0_0 i) (hc1 : ¬cond0_1 i) (x0 : Vec F S2x256x4096 .f32) (x1 : Vec F S2x256x1 .f32) (x2 : Vec F S4096 .f32) (x3 : Vec F S4096 .f32) (x4 : Vec F S4096 .f32) (x5 : Vec F S4096 .f32) (x6 : Vec F S8x4096 .f32) (x7 : Vec F S8 .f32) (xs0 xs1 : Vec F S2x4096 .f32) :
    sout0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay5 x0 x1 xs1 := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_B
  dsimp only
  rw [View.canon_unit_zero hz2]
  simp only [View.readAt_eq_ld, harg2.read_unread, harg3.read_unread, harg4.read_unread, harg5.read_unread, harg6.read_unread, harg7.read_unread, harg8.read_unread, harg9.read_unread, harg11.read_unread, harg12.read_unread, View.ld_unit_zero (S := S2x256x4096) hz3, View.ld_unit_zero (S := S2x256x1) hz3, View.ld_unit_zero (S := S2x4096) hz2, View.ld_unit_zero (S := S4096) hz1, View.ld_unit_zero (S := S8x4096) hz2, View.ld_unit_zero (S := S8) hz1]

/-! ## The first point of a batch block -/

theorem sum_A (hc0 : cond0_0 i) (hc1 : ¬cond0_1 i) (x0 : Vec F S2x256x4096 .f32) (x1 : Vec F S2x256x1 .f32) (x2 : Vec F S4096 .f32) (x3 : Vec F S4096 .f32) (x4 : Vec F S4096 .f32) (x5 : Vec F S4096 .f32) (x6 : Vec F S8x4096 .f32) (x7 : Vec F S8 .f32) :
    sout0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay4 x0 x1 k0_pay1 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S2x4096) hz2, View.readCov_unit_zero (S := S2x4096) _ hz2]
  simp only [View.readAt_eq_ld, harg2.read_unread, harg3.read_unread, harg4.read_unread, harg5.read_unread, harg6.read_unread, harg7.read_unread, harg8.read_unread, harg9.read_unread, harg11.read_unread, harg12.read_unread, View.ld_unit_zero (S := S2x256x4096) hz3, View.ld_unit_zero (S := S2x256x1) hz3, View.ld_unit_zero (S := S2x4096) hz2, View.ld_unit_zero (S := S4096) hz1, View.ld_unit_zero (S := S8x4096) hz2, View.ld_unit_zero (S := S8) hz1]

theorem count_A (hc0 : cond0_0 i) (hc1 : ¬cond0_1 i) (x0 : Vec F S2x256x4096 .f32) (x1 : Vec F S2x256x1 .f32) (x2 : Vec F S4096 .f32) (x3 : Vec F S4096 .f32) (x4 : Vec F S4096 .f32) (x5 : Vec F S4096 .f32) (x6 : Vec F S8x4096 .f32) (x7 : Vec F S8 .f32) :
    sout0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 = k0_pay5 x0 x1 k0_pay2 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 hc0 hc1 x0 x1 x2 x3 x4 x5 x6 x7)]
  unfold kernelRun0_A
  dsimp only
  sl_unfold_words
  rw [View.canon_cons_unit_zero (S := S2x4096) hz2, View.readCov_unit_zero (S := S2x4096) _ hz2]
  simp only [View.readAt_eq_ld, harg2.read_unread, harg3.read_unread, harg4.read_unread, harg5.read_unread, harg6.read_unread, harg7.read_unread, harg8.read_unread, harg9.read_unread, harg11.read_unread, harg12.read_unread, View.ld_unit_zero (S := S2x256x4096) hz3, View.ld_unit_zero (S := S2x256x1) hz3, View.ld_unit_zero (S := S2x4096) hz2, View.ld_unit_zero (S := S4096) hz1, View.ld_unit_zero (S := S8x4096) hz2, View.ld_unit_zero (S := S8) hz1]

/-! ## The last point of a batch block -/

theorem sum_C (hc0 : ¬cond0_0 i) (hc1 : cond0_1 i) (x0 : Vec F S2x256x4096 .f32) (x1 : Vec F S2x256x1 .f32) (x2 : Vec F S4096 .f32) (x3 : Vec F S4096 .f32) (x4 : Vec F S4096 .f32) (x5 : Vec F S4096 .f32) (x6 : Vec F S8x4096 .f32) (x7 : Vec F S8 .f32) (xs0 xs1 : Vec F S2x4096 .f32) :
    sout0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay4 x0 x1 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, harg12.read_unread, View.ld_unit_zero (S := S2x256x4096) hz3, View.ld_unit_zero (S := S2x256x1) hz3, View.ld_unit_zero (S := S2x4096) hz2, View.ld_unit_zero (S := S4096) hz1, View.ld_unit_zero (S := S8x4096) hz2, View.ld_unit_zero (S := S8) hz1]

theorem count_C (hc0 : ¬cond0_0 i) (hc1 : cond0_1 i) (x0 : Vec F S2x256x4096 .f32) (x1 : Vec F S2x256x1 .f32) (x2 : Vec F S4096 .f32) (x3 : Vec F S4096 .f32) (x4 : Vec F S4096 .f32) (x5 : Vec F S4096 .f32) (x6 : Vec F S8x4096 .f32) (x7 : Vec F S8 .f32) (xs0 xs1 : Vec F S2x4096 .f32) :
    sout0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1 = k0_pay5 x0 x1 xs1 := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg11.read_unread, harg12.read_unread, View.ld_unit_zero (S := S2x256x4096) hz3, View.ld_unit_zero (S := S2x256x1) hz3, View.ld_unit_zero (S := S2x4096) hz2, View.ld_unit_zero (S := S4096) hz1, View.ld_unit_zero (S := S8x4096) hz2, View.ld_unit_zero (S := S8) hz1]

/-- The output block at the last point: the tail over the sums and counts this point has just stored. -/
theorem out_C (hc0 : ¬cond0_0 i) (hc1 : cond0_1 i) (x0 : Vec F S2x256x4096 .f32) (x1 : Vec F S2x256x1 .f32) (x2 : Vec F S4096 .f32) (x3 : Vec F S4096 .f32) (x4 : Vec F S4096 .f32) (x5 : Vec F S4096 .f32) (x6 : Vec F S8x4096 .f32) (x7 : Vec F S8 .f32) (xs0 xs1 : Vec F S2x4096 .f32) :
    out0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1
      = k0_pay6 (k0_pay7 (k0_pay4 x0 x1 xs0) (k0_pay5 x0 x1 xs1) x2 x3) (k0_pay9 x6) (k0_pay10 x6) x4 x5 x7 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 arg12 harg12 hc0 hc1 x0 x1 x2 x3 x4 x5 x6 x7 xs0 xs1)]
  unfold kernelRun0_C
  dsimp only
  sl_unfold_words
  rw [View.canon_unit_zero hz3, View.readCov_unit_zero (S := S2x4096) _ hz2, View.readCov_unit_zero (S := S2x4096) _ hz2]
  simp only [View.readAt_eq_ld, harg2.read_unread, harg3.read_unread, harg4.read_unread, harg5.read_unread, harg6.read_unread, harg7.read_unread, harg8.read_unread, harg9.read_unread, harg11.read_unread, harg12.read_unread, View.ld_unit_zero (S := S2x256x4096) hz3, View.ld_unit_zero (S := S2x256x1) hz3, View.ld_unit_zero (S := S2x4096) hz2, View.ld_unit_zero (S := S4096) hz1, View.ld_unit_zero (S := S8x4096) hz2, View.ld_unit_zero (S := S8) hz1]

end Cert.KernelIdeal.RouterValue

end
-- ==== Proof.LibMidSum.lean ====
/-
  A rank-3 array reduced along its MIDDLE axis, and a trailing unit axis spread out, read at an index.

  A sum along the second axis of an [a, b, c] array into [a, c], at (p, d), is the sum over r < b of the entries
  (p, r, d): the reduced index (p, d) with the middle coordinate r put back is (p, r, d). An [a, b, 1] array spread
  along its last axis to [a, b, c] reads at (p, r, d) the operand at (p, r, 0) (a per-row factor applied to every
  column of a block).
-/
import Idealize.ShloMosaic.Lib.Pipeline.Value
import Idealize.ShloMosaic.Lib.ValueIdx
import Idealize.ShloMosaic.PureOps.Ideal.Laws

noncomputable section

namespace Cert.Lib.MidSum

open Idealize.ShloMosaic Idealize.ShloMosaic.ValueIdx

/-- A sum along the middle axis of an [a, b, c] array, at (p, d), is the sum of the b entries (p, ·, d). -/
theorem midsum_apply {a b c : ℕ} (x : FVec Ideal ⟨3, ![a, b, c]⟩ .f32)
    (h : (⟨3, ![a, b, c]⟩ : Shape).Reduces [1] ⟨2, ![a, c]⟩) (hφ : FKind.Formats .f32)
    (hacc : (0x00000000#32 : BitVec 32) = 0x00000000#32) (p : Fin a) (d : Fin c) :
    multiReduction .add [1] ⟨2, ![a, c]⟩ x 0x00000000#32 h hφ hacc (ix2 p d) = ∑ r : Fin b, x (ix3 p r d) := by
  refine (Ideal.multiReduction_add_single x 0x00000000#32 h hφ hacc (ix2 p d)).trans ?_
  refine Finset.sum_congr rfl fun r _ => congrArg x ?_
  funext e
  apply Fin.ext
  match e with
  | ⟨0, _⟩ => rfl
  | ⟨1, _⟩ => rfl
  | ⟨2, _⟩ => rfl

/-- An [a, b, 1] array spread to [a, b, c] reads, at (p, r, d), the operand at (p, r, 0). -/
theorem broadcastTo_ab1_abc_apply {α : Type} {a b c : ℕ} (v : (⟨3, ![a, b, 1]⟩ : Shape).Idx → α)
    (h : (⟨3, ![a, b, 1]⟩ : Shape).Broadcasts ⟨3, ![a, b, c]⟩) (p : Fin a) (r : Fin b) (d : Fin c) :
    broadcastTo ⟨3, ![a, b, c]⟩ v h (ix3 p r d) = v (ix3 p r (0 : Fin 1)) := by
  refine broadcastTo_apply v h (ix3 p r d) (ix3 p r (0 : Fin 1)) fun ax => ?_
  match ax with
  | ⟨0, _⟩ =>
    show p.val = if a = 1 then 0 else p.val
    split
    · have := p.isLt; omega
    · rfl
  | ⟨1, _⟩ =>
    show r.val = if b = 1 then 0 else r.val
    split
    · have := r.isLt; omega
    · rfl
  | ⟨2, _⟩ => rfl

end Cert.Lib.MidSum

end
-- ==== Proof.PaySums.lean ====
/-
  One grid point's contribution to the masked sums.

  At a grid point the body holds a block x of 2 batch rows × 256 sequence positions × 4096 features and the
  matching block of the mask, 2 × 256 × 1. Its masked block is x[p,r,d]·mask[p,r]; the point adds to the running
  sum Σ_r x[p,r,d]·mask[p,r] and to the running count Σ_r [x[p,r,d]·mask[p,r] ≠ 0], per batch row p and feature d.
  The stores' payloads are "what was there, plus the block's sum" (for the first point of a batch block: zero plus it).
-/
import proofs.«162364_j71889162600594_2_alg».proof.Proof.Gen.KernelIdeal.Skeleton
import proofs.«162364_j71889162600594_2_alg».proof.Proof.LibMidSum
import proofs.«162364_j71889162600594_2_alg».proof.Proof.RouterSpec
import Idealize.ShloMosaic.Lib.Pipeline.Value
import Idealize.ShloMosaic.Lib.ValueIdx

noncomputable section

namespace Cert.KernelIdeal.RouterValue

open Cert.KernelIdeal Cert.KernelIdeal.Gen Idealize.ShloMosaic Idealize.ShloMosaic.ValueIdx

section AnyValues

variable {F : FTy → Type} [FloatOps F]

/-- The block's per-row, per-feature sum of the masked entries over its 256 positions. -/
def blockSum (x : Vec F S2x256x4096 .f32) (mk : Vec F S2x256x1 .f32) : FVec F S2x4096 .f32 :=
  multiReduction .add [1] S2x4096 (k0_pay3 x mk) 0x00000000#32 reduces_S2x256x4096_S2x4096 (.inl rfl) rfl

/-- The block's per-row, per-feature count of the masked entries that are not zero. -/
def blockCount (x : Vec F S2x256x4096 .f32) (mk : Vec F S2x256x1 .f32) : FVec F S2x4096 .f32 :=
  multiReduction .add [1] S2x4096
    (sitofp .f32 (extui 32 (cmpf .one (k0_pay3 x mk) (broadcast S2x256x4096 (Scalar.ofBits .f32 0x00000000#32))) natLt_1_32))
    0x00000000#32 reduces_S2x256x4096_S2x4096 (.inl rfl) rfl

/-- The zero the accumulators start from. -/
abbrev zeros : FVec F S2x4096 .f32 := broadcast S2x4096 (Scalar.ofBits .f32 0x00000000#32)

/-- The running sum's store: what was there plus the block's sum. -/
theorem pay4_eq (x : Vec F S2x256x4096 .f32) (mk : Vec F S2x256x1 .f32) (v : Vec F S2x4096 .f32) :
    k0_pay4 x mk v = addf v (blockSum x mk) := by
  unfold k0_pay4 blockSum
  exact shapeCast_self _ _

/-- The running count's store: what was there plus the block's count. -/
theorem pay5_eq (x : Vec F S2x256x4096 .f32) (mk : Vec F S2x256x1 .f32) (v : Vec F S2x4096 .f32) :
    k0_pay5 x mk v = addf v (blockCount x mk) := by
  unfold k0_pay5 blockCount
  exact shapeCast_self _ _

/-- The two resets store zeros. -/
theorem pay1_eq : k0_pay1 (F := F) = zeros := by
  unfold k0_pay1
  exact shapeCast_self _ _

theorem pay2_eq : k0_pay2 (F := F) = zeros := by
  unfold k0_pay2
  exact shapeCast_self _ _

end AnyValues

/-! ## On the extended reals, entry by entry -/

/-- The masked block at (p, r, d): x[p,r,d]·mask[p,r]. -/
theorem masked_at (x : Vec Ideal S2x256x4096 .f32) (mk : Vec Ideal S2x256x1 .f32) (p : Fin 2) (r : Fin 256) (d : Fin 4096) :
    k0_pay3 x mk (ix3 p r d) = x (ix3 p r d) * mk (ix3 p r (0 : Fin 1)) := by
  unfold k0_pay3
  rw [mulf_apply, Cert.Lib.MidSum.broadcastTo_ab1_abc_apply, shapeCast_self]

/-- The block's sum at (p, d). -/
theorem blockSum_at (x : Vec Ideal S2x256x4096 .f32) (mk : Vec Ideal S2x256x1 .f32) (p : Fin 2) (d : Fin 4096) :
    blockSum x mk (ix2 p d) = ∑ r : Fin 256, x (ix3 p r d) * mk (ix3 p r (0 : Fin 1)) := by
  unfold blockSum
  refine (Cert.Lib.MidSum.midsum_apply (k0_pay3 x mk) _ _ _ p d).trans ?_
  exact Finset.sum_congr rfl fun r _ => masked_at x mk p r d

/-- The block's count at (p, d). -/
theorem blockCount_at (x : Vec Ideal S2x256x4096 .f32) (mk : Vec Ideal S2x256x1 .f32) (p : Fin 2) (d : Fin 4096) :
    blockCount x mk (ix2 p d) = ∑ r : Fin 256, Cert.Router.nonzero (x (ix3 p r d) * mk (ix3 p r (0 : Fin 1))) := by
  unfold blockCount
  refine (Cert.Lib.MidSum.midsum_apply _ _ _ _ p d).trans ?_
  refine Finset.sum_congr rfl fun r _ => ?_
  rw [sitofp_apply, extui_apply, cmpf_apply, broadcast_apply, masked_at]
  exact Cert.Router.nonzero_ordered _

end Cert.KernelIdeal.RouterValue

end
-- ==== Proof.Steps.lean ====
/-
  One step of the walk over the sequence axis.

  The first step of a batch block leaves in the two accumulators its own block's sum and count (zero plus them); every
  later step leaves what the step before left plus its own block's sum and count; and the last step's output block is the
  tail of the computation over the accumulators as that step leaves them.
-/
import proofs.«162364_j71889162600594_2_alg».proof.Proof.Pieces
import proofs.«162364_j71889162600594_2_alg».proof.Proof.PaySums

noncomputable section

namespace Cert.KernelIdeal.RouterValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Adding to the zero block changes nothing. -/
theorem zeros_add (v : FVec Ideal S2x4096 .f32) : addf (zeros (F := Ideal)) v = v := by
  funext j
  show Ideal.ofBits .f32 0x00000000#32 + v j = v j
  rw [Ideal.ofBits_zero_f32, zero_add]

/-- The first step of a batch block leaves its own contribution. -/
theorem first_step (c : Dev nD) (t : Fin cfg0.N) (h0 : t.val % 16 = 0) (h1 : ¬t.val % 16 = 15) :
    (outsAt0 m c t.val t.isLt).2.1 = blockSum (F := Ideal) (iblk m c 0 t) (iblk m c 1 t)
      ∧ (outsAt0 m c t.val t.isLt).2.2 = blockCount (F := Ideal) (iblk m c 0 t) (iblk m c 1 t) := by
  rw [outsAt0_A m c t h0 h1]
  dsimp only
  constructor
  · rw [sum_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun hq => h1 ((hcond0_1 t).mp hq)) (iblk m c 0 t) (iblk m c 1 t) (iblk m c 2 t) (iblk m c 3 t) (iblk m c 4 t) (iblk m c 5 t) (iblk m c 6 t) (iblk m c 7 t), pay4_eq, pay1_eq, zeros_add]
  · rw [count_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond0_0 t).mpr h0) (fun hq => h1 ((hcond0_1 t).mp hq)) (iblk m c 0 t) (iblk m c 1 t) (iblk m c 2 t) (iblk m c 3 t) (iblk m c 4 t) (iblk m c 5 t) (iblk m c 6 t) (iblk m c 7 t), pay5_eq, pay2_eq, zeros_add]

/-- Every later step adds its contribution to what the step before left. -/
theorem later_step (c : Dev nD) (n : ℕ) (h : n + 1 < cfg0.N) (h0 : ¬(n + 1) % 16 = 0) :
    (outsAt0 m c (n + 1) h).2.1
        = addf (F := Ideal) (outsAt0 m c n (Nat.lt_of_succ_lt h)).2.1 (blockSum (F := Ideal) (iblk m c 0 ⟨n + 1, h⟩) (iblk m c 1 ⟨n + 1, h⟩))
      ∧ (outsAt0 m c (n + 1) h).2.2
        = addf (F := Ideal) (outsAt0 m c n (Nat.lt_of_succ_lt h)).2.2 (blockCount (F := Ideal) (iblk m c 0 ⟨n + 1, h⟩) (iblk m c 1 ⟨n + 1, h⟩)) := by
  by_cases h1 : (n + 1) % 16 = 15
  · rw [outsAt0_C m c ⟨n + 1, h⟩ h0 h1]
    dsimp only
    constructor
    · rw [sum_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (fun hq => h0 ((hcond0_0 ⟨n + 1, h⟩).mp hq)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩), pay4_eq]
      rfl
    · rw [count_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (fun hq => h0 ((hcond0_0 ⟨n + 1, h⟩).mp hq)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩), pay5_eq]
      rfl
  · rw [outsAt0_B m c ⟨n + 1, h⟩ h0 h1]
    dsimp only
    constructor
    · rw [sum_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (fun hq => h0 ((hcond0_0 ⟨n + 1, h⟩).mp hq)) (fun hq => h1 ((hcond0_1 ⟨n + 1, h⟩).mp hq)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩), pay4_eq]
      rfl
    · rw [count_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) scM0_0 (Memref.isWhole_whole _) scM0_1 (Memref.isWhole_whole _) (fun hq => h0 ((hcond0_0 ⟨n + 1, h⟩).mp hq)) (fun hq => h1 ((hcond0_1 ⟨n + 1, h⟩).mp hq)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) (iblk m c 6 ⟨n + 1, h⟩) (iblk m c 7 ⟨n + 1, h⟩), pay5_eq]
      rfl

/-- The last step's output block: the tail over the accumulators as that step leaves them. -/
theorem last_step (c : Dev nD) (t : Fin cfg0.N) (h0 : ¬t.val % 16 = 0) (h1 : t.val % 16 = 15) :
    (outsAt0 m c t.val t.isLt).1
      = k0_pay6 (F := Ideal) (k0_pay7 (outsAt0 m c t.val t.isLt).2.1 (outsAt0 m c t.val t.isLt).2.2 (iblk m c 2 t) (iblk m c 3 t))
          (k0_pay9 (iblk m c 6 t)) (k0_pay10 (iblk m c 6 t)) (iblk m c 4 t) (iblk m c 5 t) (iblk m c 7 t) := by
  rw [outsAt0_C m c t h0 h1]
  dsimp only
  rw [out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (iblk m c 4 t) (iblk m c 5 t) (iblk m c 6 t) (iblk m c 7 t), sum_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (iblk m c 4 t) (iblk m c 5 t) (iblk m c 6 t) (iblk m c 7 t),
    count_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun hq => h0 ((hcond0_0 t).mp hq)) ((hcond0_1 t).mpr h1) (iblk m c 0 t) (iblk m c 1 t) (iblk m c 2 t) (iblk m c 3 t) (iblk m c 4 t) (iblk m c 5 t) (iblk m c 6 t) (iblk m c 7 t)]

end Cert.KernelIdeal.RouterValue

end
-- ==== Proof.Accumulate.lean ====
/-
  The running sums and counts, grid point by grid point.

  The grid walks the 2 batch blocks in order and, within each, the 16 blocks of 256 sequence positions. Within a batch
  block the two accumulators hold, after step s, the sum over the steps 0 … s of the blocks' contributions: the first
  step leaves its own, every later step adds its own to what the step before left. After the 16th step the output
  block is the tail of the computation applied to those sums and counts. Point n belongs to the batch block that
  starts at point n − n mod 16, and is its step n mod 16.
-/
import proofs.«162364_j71889162600594_2_alg».proof.Proof.Steps

noncomputable section

namespace Cert.KernelIdeal.RouterValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The contribution of grid point n to the sums (zero past the grid's end). -/
def ptSum (c : Dev nD) (n : ℕ) : FVec Ideal S2x4096 .f32 :=
  if h : n < cfg0.N then blockSum (F := Ideal) (iblk m c 0 ⟨n, h⟩) (iblk m c 1 ⟨n, h⟩) else zeros

/-- The contribution of grid point n to the counts. -/
def ptCount (c : Dev nD) (n : ℕ) : FVec Ideal S2x4096 .f32 :=
  if h : n < cfg0.N then blockCount (F := Ideal) (iblk m c 0 ⟨n, h⟩) (iblk m c 1 ⟨n, h⟩) else zeros

theorem ptSum_of_lt (c : Dev nD) {n : ℕ} (h : n < cfg0.N) :
    ptSum m c n = blockSum (F := Ideal) (iblk m c 0 ⟨n, h⟩) (iblk m c 1 ⟨n, h⟩) := dif_pos h

theorem ptCount_of_lt (c : Dev nD) {n : ℕ} (h : n < cfg0.N) :
    ptCount m c n = blockCount (F := Ideal) (iblk m c 0 ⟨n, h⟩) (iblk m c 1 ⟨n, h⟩) := dif_pos h

/-- What the points of n's batch block up to n have contributed to the sums. -/
def partSum (c : Dev nD) (n : ℕ) : FVec Ideal S2x4096 .f32 :=
  fun j => ∑ s ∈ Finset.range (n % 16 + 1), ptSum m c (n - n % 16 + s) j

/-- The same for the counts. -/
def partCount (c : Dev nD) (n : ℕ) : FVec Ideal S2x4096 .f32 :=
  fun j => ∑ s ∈ Finset.range (n % 16 + 1), ptCount m c (n - n % 16 + s) j

/-- At a batch block's first point the partial sum is that point's term. -/
theorem part_first (f : ℕ → EReal) (n : ℕ) (h0 : n % 16 = 0) :
    ∑ s ∈ Finset.range (n % 16 + 1), f (n - n % 16 + s) = f n := by
  rw [h0, Nat.zero_add, Finset.sum_range_one, Nat.sub_zero, Nat.add_zero]

/-- At any other point it is the partial sum at the point before plus that point's term. -/
theorem part_succ (f : ℕ → EReal) (n : ℕ) (h0 : ¬(n + 1) % 16 = 0) :
    ∑ s ∈ Finset.range ((n + 1) % 16 + 1), f (n + 1 - (n + 1) % 16 + s)
      = (∑ s ∈ Finset.range (n % 16 + 1), f (n - n % 16 + s)) + f (n + 1) := by
  have hb : n + 1 - (n + 1) % 16 = n - n % 16 := by omega
  have hm : (n + 1) % 16 = n % 16 + 1 := by omega
  have hl : n - n % 16 + (n % 16 + 1) = n + 1 := by omega
  rw [hb, hm, Finset.sum_range_succ, hl]

/-- After every point the accumulators hold what the points of its batch block have contributed so far. -/
theorem scratch_after (c : Dev nD) : ∀ (n : ℕ) (h : n < cfg0.N),
    (outsAt0 m c n h).2.1 = partSum m c n ∧ (outsAt0 m c n h).2.2 = partCount m c n
  | 0, h => by
    obtain ⟨e1, e2⟩ := first_step m c ⟨0, h⟩ (Nat.zero_mod 16) (by show ¬0 % 16 = 15; decide)
    refine ⟨e1.trans ?_, e2.trans ?_⟩
    · funext j
      unfold partSum
      rw [part_first (fun k => ptSum m c k j) 0 (Nat.zero_mod 16), ptSum_of_lt m c h]
    · funext j
      unfold partCount
      rw [part_first (fun k => ptCount m c k j) 0 (Nat.zero_mod 16), ptCount_of_lt m c h]
  | n + 1, h => by
    have hN : cfg0.N = 32 := N_0
    obtain ⟨ih1, ih2⟩ := scratch_after c n (Nat.lt_of_succ_lt h)
    by_cases h0 : (n + 1) % 16 = 0
    · obtain ⟨e1, e2⟩ := first_step m c ⟨n + 1, h⟩ h0 (by show ¬(n + 1) % 16 = 15; omega)
      refine ⟨e1.trans ?_, e2.trans ?_⟩
      · funext j
        unfold partSum
        rw [part_first (fun k => ptSum m c k j) (n + 1) h0, ptSum_of_lt m c h]
      · funext j
        unfold partCount
        rw [part_first (fun k => ptCount m c k j) (n + 1) h0, ptCount_of_lt m c h]
    · obtain ⟨e1, e2⟩ := later_step m c n h h0
      refine ⟨e1.trans ?_, e2.trans ?_⟩
      · rw [ih1]
        funext j
        show partSum m c n j + _ = partSum m c (n + 1) j
        unfold partSum
        rw [part_succ (fun k => ptSum m c k j) n h0, ptSum_of_lt m c h]
      · rw [ih2]
        funext j
        show partCount m c n j + _ = partCount m c (n + 1) j
        unfold partCount
        rw [part_succ (fun k => ptCount m c k j) n h0, ptCount_of_lt m c h]

/-- At the last point of a batch block the output block is the tail over the collected sums and counts. -/
theorem out_after (c : Dev nD) (t : Fin cfg0.N) (h1 : t.val % 16 = 15) :
    (outsAt0 m c t.val t.isLt).1
      = k0_pay6 (F := Ideal) (k0_pay7 (partSum m c t.val) (partCount m c t.val) (iblk m c 2 t) (iblk m c 3 t))
          (k0_pay9 (iblk m c 6 t)) (k0_pay10 (iblk m c 6 t)) (iblk m c 4 t) (iblk m c 5 t) (iblk m c 7 t) := by
  have h0 : ¬t.val % 16 = 0 := by omega
  obtain ⟨s1, s2⟩ := scratch_after m c t.val t.isLt
  rw [← s1, ← s2]
  exact last_step m c t h0 h1

end Cert.KernelIdeal.RouterValue

end
-- ==== Proof.Blocks.lean ====
/-
  The blocks the body is handed, read off the arrays.

  Grid point t is step t mod 16 of batch block t / 16. Its block of x holds the batch rows 2·(t/16) + p, p < 2, at the
  sequence positions 256·(t mod 16) + r, r < 256, all 4096 features; its block of the mask the same rows and positions.
  The mask array is computed before the kernel runs: the product of the two integer masks read as a float, with a unit
  axis added. The weights, biases and the weight matrix come whole at every point.
-/
import proofs.«162364_j71889162600594_2_alg».proof.Proof.Gen.KernelIdeal.Frame
import proofs.«162364_j71889162600594_2_alg».proof.Proof.RouterArrays
import Idealize.ShloMosaic.Lib.Pipeline.Value
import Idealize.ShloMosaic.Lib.StableHlo.Run
import Idealize.ShloMosaic.Lib.Tactic

noncomputable section

namespace Cert.KernelIdeal.RouterValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- The printed index maps, decided once over the 32 grid points. -/
theorem idx_facts : ∀ t : Fin cfg0.N,
    win0_0.index t (0 : Fin 3) = t.val / 16 ∧ win0_0.index t (1 : Fin 3) = t.val % 16 ∧ win0_0.index t (2 : Fin 3) = 0
    ∧ win0_1.index t (0 : Fin 3) = t.val / 16 ∧ win0_1.index t (1 : Fin 3) = t.val % 16 ∧ win0_1.index t (2 : Fin 3) = 0
    ∧ win0_2.index t (0 : Fin 1) = 0 ∧ win0_3.index t (0 : Fin 1) = 0 ∧ win0_4.index t (0 : Fin 1) = 0
    ∧ win0_5.index t (0 : Fin 1) = 0 ∧ win0_6.index t (0 : Fin 2) = 0 ∧ win0_6.index t (1 : Fin 2) = 0
    ∧ win0_7.index t (0 : Fin 1) = 0
    ∧ win0_8.index t (0 : Fin 3) = t.val / 16 ∧ win0_8.index t (1 : Fin 3) = 0 ∧ win0_8.index t (2 : Fin 3) = 0 :=
  (by decide +kernel : ∀ t : Fin grid0.N, _)

/-- The batch row that row p of point t's blocks is. -/
def rowOf (t : Fin cfg0.N) (p : Fin 2) : Fin 4 :=
  ⟨2 * (t.val / 16) + p.val, by have h : t.val < 32 := lt_of_lt_of_eq t.isLt (show cfg0.N = 32 from N_0); omega⟩

/-- The sequence position that position r of point t's blocks is. -/
def posOf (t : Fin cfg0.N) (r : Fin 256) : Fin 4096 :=
  ⟨256 * (t.val % 16) + r.val, by omega⟩

/-- The block of x at point t. -/
theorem xblock_at (c : Dev nD) (t : Fin cfg0.N) (p : Fin 2) (r : Fin 256) (d : Fin 4096) :
    (iblk m c 0 t : Vec Ideal S2x256x4096 .f32) (ix3 p r d)
      = m ((c : Thread nD τ).loc main_arg0) (ix3 (rowOf t p) (posOf t r) d) := by
  unfold iblk
  rw [View.read_apply]
  show V m c main_arg0 (((cfg0.win 0).blk t).view.emb (ix3 p r d)) = _
  rw [V_main_arg0]
  refine congrArg _ (funext fun a => Fin.ext ?_)
  obtain ⟨e0, e1, e2, -⟩ := idx_facts t
  match a with
  | ⟨0, _⟩ => show win0_0.index t (0 : Fin 3) * 2 + 1 * p.val = 2 * (t.val / 16) + p.val; rw [e0]; omega
  | ⟨1, _⟩ => show win0_0.index t (1 : Fin 3) * 256 + 1 * r.val = 256 * (t.val % 16) + r.val; rw [e1]; omega
  | ⟨2, _⟩ => show win0_0.index t (2 : Fin 3) * 4096 + 1 * d.val = d.val; rw [e2]; omega

/-- The mask array as the region finds it. -/
theorem mask_array (c : Dev nD) :
    (V m c main_v2 : S4x4096x1.Idx → EReal)
      = broadcastInDim S4x4096x1 ![0, 1] bcast_S4x4096_S4x4096x1_0_1
          (sitofp (F := Ideal) .f32 (muli (m ((c : Thread nD τ).loc main_arg1)) (m ((c : Thread nD τ).loc main_arg2)))) := by
  show StableHlo.after hostOps0 (fun b => m (c, b)) (Proc.devRef .tc main_v2) = _
  after_results

/-- The block of the mask at point t. -/
theorem mblock_at (c : Dev nD) (t : Fin cfg0.N) (p : Fin 2) (r : Fin 256) (u : Fin 1) :
    (iblk m c 1 t : Vec Ideal S2x256x1 .f32) (ix3 p r u)
      = Cert.Router.maskAt (m ((c : Thread nD τ).loc main_arg1)) (m ((c : Thread nD τ).loc main_arg2)) (rowOf t p) (posOf t r) := by
  unfold iblk
  rw [View.read_apply]
  show V m c main_v2 (((cfg0.win 1).blk t).view.emb (ix3 p r u)) = _
  rw [mask_array]
  obtain ⟨-, -, -, e0, e1, -⟩ := idx_facts t
  refine (broadcastInDim_apply _ bcast_S4x4096_S4x4096x1_0_1 _ _ (ix2 (rowOf t p) (posOf t r)) fun a => ?_).trans rfl
  match a with
  | ⟨0, _⟩ =>
    show 2 * (t.val / 16) + p.val = if (4 : Nat) = 1 then 0 else win0_1.index t (0 : Fin 3) * 2 + 1 * p.val
    rw [if_neg (by decide), e0]; omega
  | ⟨1, _⟩ =>
    show 256 * (t.val % 16) + r.val = if (4096 : Nat) = 1 then 0 else win0_1.index t (1 : Fin 3) * 256 + 1 * r.val
    rw [if_neg (by decide), e1]; omega

/-- The first scale, whole at every point. -/
theorem scale1_at (c : Dev nD) (t : Fin cfg0.N) :
    (iblk m c 2 t : Vec Ideal S4096 .f32) = m ((c : Thread nD τ).loc main_arg3) := by
  funext j
  unfold iblk
  rw [View.read_apply]
  show V m c main_arg3 (((cfg0.win 2).blk t).view.emb j) = _
  rw [V_main_arg3]
  refine congrArg _ (funext fun a => Fin.ext ?_)
  obtain ⟨-, -, -, -, -, -, e, -⟩ := idx_facts t
  match a with
  | ⟨0, _⟩ => show win0_2.index t (0 : Fin 1) * 4096 + 1 * (j 0).val = (j 0).val; rw [e]; omega

/-- The first shift. -/
theorem shift1_at (c : Dev nD) (t : Fin cfg0.N) :
    (iblk m c 3 t : Vec Ideal S4096 .f32) = m ((c : Thread nD τ).loc main_arg4) := by
  funext j
  unfold iblk
  rw [View.read_apply]
  show V m c main_arg4 (((cfg0.win 3).blk t).view.emb j) = _
  rw [V_main_arg4]
  refine congrArg _ (funext fun a => Fin.ext ?_)
  obtain ⟨-, -, -, -, -, -, -, e, -⟩ := idx_facts t
  match a with
  | ⟨0, _⟩ => show win0_3.index t (0 : Fin 1) * 4096 + 1 * (j 0).val = (j 0).val; rw [e]; omega

/-- The second scale. -/
theorem scale2_at (c : Dev nD) (t : Fin cfg0.N) :
    (iblk m c 4 t : Vec Ideal S4096 .f32) = m ((c : Thread nD τ).loc main_arg5) := by
  funext j
  unfold iblk
  rw [View.read_apply]
  show V m c main_arg5 (((cfg0.win 4).blk t).view.emb j) = _
  rw [V_main_arg5]
  refine congrArg _ (funext fun a => Fin.ext ?_)
  obtain ⟨-, -, -, -, -, -, -, -, e, -⟩ := idx_facts t
  match a with
  | ⟨0, _⟩ => show win0_4.index t (0 : Fin 1) * 4096 + 1 * (j 0).val = (j 0).val; rw [e]; omega

/-- The second shift. -/
theorem shift2_at (c : Dev nD) (t : Fin cfg0.N) :
    (iblk m c 5 t : Vec Ideal S4096 .f32) = m ((c : Thread nD τ).loc main_arg6) := by
  funext j
  unfold iblk
  rw [View.read_apply]
  show V m c main_arg6 (((cfg0.win 5).blk t).view.emb j) = _
  rw [V_main_arg6]
  refine congrArg _ (funext fun a => Fin.ext ?_)
  obtain ⟨-, -, -, -, -, -, -, -, -, e, -⟩ := idx_facts t
  match a with
  | ⟨0, _⟩ => show win0_5.index t (0 : Fin 1) * 4096 + 1 * (j 0).val = (j 0).val; rw [e]; omega

/-- The weight matrix. -/
theorem weights_at (c : Dev nD) (t : Fin cfg0.N) :
    (iblk m c 6 t : Vec Ideal S8x4096 .f32) = m ((c : Thread nD τ).loc main_arg7) := by
  funext j
  unfold iblk
  rw [View.read_apply]
  show V m c main_arg7 (((cfg0.win 6).blk t).view.emb j) = _
  rw [V_main_arg7]
  refine congrArg _ (funext fun a => Fin.ext ?_)
  obtain ⟨-, -, -, -, -, -, -, -, -, -, e0, e1, -⟩ := idx_facts t
  match a with
  | ⟨0, _⟩ => show win0_6.index t (0 : Fin 2) * 8 + 1 * (j 0).val = (j 0).val; rw [e0]; omega
  | ⟨1, _⟩ => show win0_6.index t (1 : Fin 2) * 4096 + 1 * (j 1).val = (j 1).val; rw [e1]; omega

/-- The bias. -/
theorem bias_at (c : Dev nD) (t : Fin cfg0.N) :
    (iblk m c 7 t : Vec Ideal S8 .f32) = m ((c : Thread nD τ).loc main_arg8) := by
  funext j
  unfold iblk
  rw [View.read_apply]
  show V m c main_arg8 (((cfg0.win 7).blk t).view.emb j) = _
  rw [V_main_arg8]
  refine congrArg _ (funext fun a => Fin.ext ?_)
  obtain ⟨-, -, -, -, -, -, -, -, -, -, -, -, e, -⟩ := idx_facts t
  match a with
  | ⟨0, _⟩ => show win0_7.index t (0 : Fin 1) * 8 + 1 * (j 0).val = (j 0).val; rw [e]; omega

end Cert.KernelIdeal.RouterValue

end
-- ==== Proof.LibKeepdimsColumn.lean ====
/-
  A row sum kept as a column, read at an index.

  `jnp.sum(x, axis=1, keepdims=True)` on an `[a, b]` array is a sum along the second axis into `[a]`, a recast of that to
  the column `[a, 1]`, and (where it meets an `[a, b]` operand) a broadcast of the column along the rows. Read at an
  index: the sum at row `p` is the sum of that row's `b` entries; the column at `(i, u)` is the sum at `i`; the broadcast
  at `(p, c)` is the column at `(p, 0)`. These are the column-shaped companions of the library's leading-unit-axis cast
  `[a] → [1, a]` and row broadcast `[1, b] → [a, b]`, stated over literal-extent index constructors so that they fire on
  coordinates of literal `Fin` types.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gcn.Lib

open Idealize.ShloMosaic Idealize.ShloMosaic.ValueIdx

section Layout
variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-- A sum along the second axis of an `[a, b]` array, at row `p`, is the sum of that row's `b` entries. -/
theorem rowsum_apply {a b : ℕ} (x : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ x 0x00000000#32 h hφ hacc (ix1 p) = ∑ k : Fin b, x (ix2 p k) := by
  refine (Ideal.multiReduction_add_single x 0x00000000#32 h hφ hacc (ix1 p)).trans ?_
  refine Finset.sum_congr rfl fun k _ => congrArg x ?_
  funext d
  apply Fin.ext
  match d with
  | ⟨0, _⟩ => rfl
  | ⟨1, _⟩ => rfl

end Cert.Gcn.Lib

end
-- ==== Proof.LibRowStats.lean ====
/-
  A row statistic kept as a column and a vector spread over the rows, read at an index, on the extended reals.

  For an [a, b] array X: the sum along the second axis recast as the column [a, 1] and divided by a scalar spread
  over the column reads, at (p, u), (Σ_k X[p,k]) / s (a row mean with keepdims); a [b] vector recast as the row [1, b]
  and spread over a rows reads, at (p, d), the vector at d (a per-feature weight applied to every row); a column
  spread along the rows reads, at (p, d), the column at (p, 0).
-/
import Idealize.ShloMosaic.Lib.Pipeline.Value
import Idealize.ShloMosaic.Lib.ValueIdx
import Idealize.ShloMosaic.Lib.ValueLayout
import Idealize.ShloMosaic.PureOps.Ideal.Laws
import proofs.«162364_j71889162600594_2_alg».proof.Proof.LibKeepdimsColumn

noncomputable section

namespace Cert.Lib.RowStats

open Idealize.ShloMosaic Idealize.ShloMosaic.ValueIdx

/-- A row sum kept as a column over a scalar: at (p, u), (Σ_k X[p,k]) / s. -/
theorem colquot_apply {a b : ℕ} (X : FVec Ideal ⟨2, ![a, b]⟩ .f32) (hr : (⟨2, ![a, b]⟩ : Shape).Reduces [1] ⟨1, ![a]⟩)
    (hφ : FKind.Formats .f32) (hacc : (0x00000000#32 : BitVec 32) = 0x00000000#32)
    (hc : (⟨1, ![a]⟩ : Shape).ShapeCasts ⟨2, ![a, 1]⟩) (s : Ideal .f32) (p : Fin a) (u : Fin 1) :
    divf (shapeCast ⟨2, ![a, 1]⟩ (multiReduction .add [1] ⟨1, ![a]⟩ X 0x00000000#32 hr hφ hacc) hc)
        (broadcast ⟨2, ![a, 1]⟩ s) (ix2 p u)
      = Ideal.div (∑ k : Fin b, X (ix2 p k)) s := by
  rw [divf_apply, broadcast_apply, Cert.Gcn.Lib.shapeCast_a_a1_apply, Cert.Gcn.Lib.rowsum_apply]

/-- A [b] vector recast as a row and spread over a rows: at (p, d), the vector at d. -/
theorem rowspread_apply {α : Type} {a b : ℕ} (w : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (d : Fin b) :
    broadcastTo ⟨2, ![a, b]⟩ (shapeCast ⟨2, ![1, b]⟩ w hc) hb (ix2 p d) = w (ix1 d) := by
  rw [broadcastTo_1b_ab_apply, shapeCast_a_1a_apply]

/-- A column spread along the rows: at (p, d), the column at (p, 0). -/
theorem colspread_apply {α : Type} {a b : ℕ} (v : (⟨2, ![a, 1]⟩ : Shape).Idx → α)
    (h : (⟨2, ![a, 1]⟩ : Shape).Broadcasts ⟨2, ![a, b]⟩) (p : Fin a) (d : Fin b) :
    broadcastTo ⟨2, ![a, b]⟩ v h (ix2 p d) = v (ix2 p (0 : Fin 1)) :=
  Cert.Gcn.Lib.broadcastTo_a1_ab_apply v h p d

end Cert.Lib.RowStats

end
-- ==== Proof.PayNorm.lean ====
/-
  The body's two row normalisations, entry by entry on the extended reals.

  At a batch block's last grid point the body divides the running sums by the running counts, normalises each of the
  2 rows of the quotient over its 4096 features (mean, biased variance, reciprocal root of variance + ε, scale, shift),
  and does the same to the 8 weight rows. Read at (p, d) the first is the row normalisation of row p; of the second the
  body keeps the column of row means, the column of row variances and the centred rows, which the last payload joins.
  Each step pushes the index through the pointwise and layout operations until it meets a row sum, reads that sum as
  the sum of the row's entries, and goes on inside the sum.
-/
import proofs.«162364_j71889162600594_2_alg».proof.Proof.Gen.KernelIdeal.Skeleton
import proofs.«162364_j71889162600594_2_alg».proof.Proof.LibRowStats
import proofs.«162364_j71889162600594_2_alg».proof.Proof.RouterSpec
import Idealize.ShloMosaic.Lib.Pipeline.Value
import Idealize.ShloMosaic.Lib.ValueIdx

noncomputable section

namespace Cert.KernelIdeal.RouterValue

open Cert.KernelIdeal Cert.KernelIdeal.Gen Idealize.ShloMosaic Idealize.ShloMosaic.ValueIdx
open Cert.Gcn.Lib Cert.Lib.RowStats

theorem rsqrt_at {s : Shape} {φ : FTy} (x : FVec Ideal s φ) (i : s.Idx) : rsqrt x i = Ideal.rsqrt (x i) := rfl
theorem exp_at {s : Shape} {φ : FTy} (x : FVec Ideal s φ) (i : s.Idx) : exp x i = Ideal.exp (x i) := rfl

/-- The normalised quotient rows at (p, d). -/
theorem quotRows_at (S N : Vec Ideal S2x4096 .f32) (w β : Vec Ideal S4096 .f32) (p : Fin 2) (d : Fin 4096) :
    k0_pay7 S N w β (ix2 p d)
      = Cert.Router.normed (fun k => Ideal.div (S (ix2 p k)) (N (ix2 p k))) (fun k => w (ix1 k)) (fun k => β (ix1 k)) d := by
  unfold k0_pay7
  repeat (first | rw [rowsum_apply] | simp only [addf_apply, mulf_apply, subf_apply, divf_apply, maximumf_apply, broadcast_apply, rsqrt_at, exp_at, rowspread_apply, colspread_apply, shapeCast_a_a1_apply])
  rfl

/-- The column of the weight rows' means at (k, u). -/
theorem weightMean_at (ffw : Vec Ideal S8x4096 .f32) (k : Fin 8) (u : Fin 1) :
    k0_pay8 ffw (ix2 k u) = Cert.Router.mean (fun d => ffw (ix2 k d)) := by
  unfold k0_pay8
  repeat (first | rw [rowsum_apply] | simp only [addf_apply, mulf_apply, subf_apply, divf_apply, maximumf_apply, broadcast_apply, rsqrt_at, exp_at, rowspread_apply, colspread_apply, shapeCast_a_a1_apply])
  rfl

/-- The centred weight rows at (k, d). -/
theorem weightCentred_at (ffw : Vec Ideal S8x4096 .f32) (k : Fin 8) (d : Fin 4096) :
    k0_pay10 ffw (ix2 k d) = ffw (ix2 k d) - Cert.Router.mean (fun d' => ffw (ix2 k d')) := by
  unfold k0_pay10
  rw [subf_apply, colspread_apply, weightMean_at]

/-- The column of the weight rows' variances at (k, u). -/
theorem weightVar_at (ffw : Vec Ideal S8x4096 .f32) (k : Fin 8) (u : Fin 1) :
    k0_pay9 ffw (ix2 k u) = Cert.Router.variance (fun d => ffw (ix2 k d)) := by
  unfold k0_pay9
  repeat (first | rw [rowsum_apply] | simp only [addf_apply, mulf_apply, subf_apply, divf_apply, maximumf_apply, broadcast_apply, rsqrt_at, exp_at, rowspread_apply, colspread_apply, shapeCast_a_a1_apply, weightMean_at])
  rfl

end Cert.KernelIdeal.RouterValue

end
-- ==== Proof.LibRowsDot.lean ====
/-
  A product of rows: for matrices `l` of M rows and `r` of N rows, both of width K, the contraction of the second
  axis of each — the dimension numbers ⟨[1], [1], [0], [0], [], []⟩ of `DotDims.transposedRhs` — read at the output
  index (a, b) is the sum over k < K of l[a, k] · r[b, k]. The contraction index of the dimension record is a
  one-coordinate tuple; the sum is re-indexed through that coordinate.
-/
import Idealize.ShloMosaic.PureOps.Ideal.Laws
import Idealize.ShloMosaic.Lib.ValueIdx

noncomputable section

namespace Cert.RowsDot

open Idealize.ShloMosaic Idealize.ShloMosaic.ValueIdx

/-- The left operand's row coordinate is the output's row. -/
theorem lhs_row {M K N : Nat} (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

/-- The right operand's row coordinate is the output's column. -/
theorem rhs_row {M K N : Nat} (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

/-- The left operand's index at output (a, b) and contraction coordinate k is (a, k). -/
theorem lhs_at {M K N : Nat} (a : Fin M) (b : Fin N) (k : Fin K) :
    (DotDims.transposedRhs M K N).lhsIdx (ix2 a b) ((contrEquiv1 (DotDims.transposedRhs M K N) K rfl rfl).symm k) = ix2 a k := by
  have hk := contrEquiv1_symm_val (DotDims.transposedRhs M K N) K rfl rfl k
  funext x
  apply Fin.ext
  match x with
  | ⟨0, _⟩ => exact lhs_row _ _
  | ⟨1, _⟩ => exact ((DotDims.transposedRhs M K N).lhsIdx_val_of_single rfl _ _).trans hk

/-- The right operand's index there is (b, k). -/
theorem rhs_at {M K N : Nat} (a : Fin M) (b : Fin N) (k : Fin K) :
    (DotDims.transposedRhs M K N).rhsIdx (ix2 a b) ((contrEquiv1 (DotDims.transposedRhs M K N) K rfl rfl).symm k) = ix2 b k := by
  have hk := contrEquiv1_symm_val (DotDims.transposedRhs M K N) K rfl rfl k
  funext x
  apply Fin.ext
  match x with
  | ⟨0, _⟩ => exact rhs_row _ _
  | ⟨1, _⟩ => exact ((DotDims.transposedRhs M K N).rhsIdx_val_of_single rfl _ _).trans hk

/-- The contraction's sum at (a, b) is the sum over the shared width of the two rows' products. -/
theorem sum_at {M K N : Nat} (l : (⟨2, ![M, K]⟩ : Shape).Idx → EReal) (r : (⟨2, ![N, K]⟩ : Shape).Idx → EReal)
    (a : Fin M) (b : Fin N) :
    ∑ q : (DotDims.transposedRhs M K N).contr.Idx,
        l ((DotDims.transposedRhs M K N).lhsIdx (ix2 a b) q) * r ((DotDims.transposedRhs M K N).rhsIdx (ix2 a b) q)
      = ∑ k : Fin K, l (ix2 a k) * r (ix2 b k) := by
  rw [← Equiv.sum_comp (contrEquiv1 (DotDims.transposedRhs M K N) K rfl rfl).symm]
  refine Finset.sum_congr rfl fun k _ => ?_
  rw [lhs_at, rhs_at]

/-- A matrix unit's product into a zero accumulator, at the ideal values: that sum. -/
theorem matmul_zero_at {M K N : Nat} {φ₁ φ₂ : FTy} (l : FVec Ideal ⟨2, ![M, K]⟩ φ₁) (r : FVec Ideal ⟨2, ![N, K]⟩ φ₂)
    (a : Fin M) (b : Fin N) :
    FloatOps.matmul (DotDims.transposedRhs M K N) none l r (constant ⟨2, ![M, N]⟩ .f32 0x00000000#32) (ix2 a b)
      = ∑ k : Fin K, l (ix2 a k) * r (ix2 b k) :=
  (Ideal.matmul_constant_zero_apply _ none l r (ix2 a b)).trans (sum_at l r a b)

/-- The same for any dimension record that IS that one (a printed program names its own). -/
theorem matmul_zero_at_of_eq {M K N : Nat} {φ₁ φ₂ : FTy} (D : DotDims ⟨2, ![M, K]⟩ ⟨2, ![N, K]⟩ ⟨2, ![M, N]⟩)
    (hD : D = DotDims.transposedRhs M K N) (l : FVec Ideal ⟨2, ![M, K]⟩ φ₁) (r : FVec Ideal ⟨2, ![N, K]⟩ φ₂)
    (a : Fin M) (b : Fin N) :
    FloatOps.matmul D none l r (constant ⟨2, ![M, N]⟩ .f32 0x00000000#32) (ix2 a b)
      = ∑ k : Fin K, l (ix2 a k) * r (ix2 b k) := by
  subst hD
  exact matmul_zero_at l r a b

end Cert.RowsDot

end
-- ==== Proof.LibRowMax.lean ====
/-
  A row maximum taken from `-∞`, read at an index, on the extended reals.

  The maximum along the second axis of an `[n, b]` array at row `p` is the fold of `max`, from the value of the pattern
  `0xFF800000` (`-∞`), over the `b` entries of that row — for a kernel's `vector.multi_reduction <maximumf>` with that
  accumulator and for the host's `stablehlo.reduce` with a maximum body from that initial value alike. The reduced
  index `p` with column `k` put back is `(p, k)`.
-/
import Idealize.ShloMosaic.Lib.ValueIdx
import Idealize.ShloMosaic.PureOps.Ideal.Laws

noncomputable section

namespace Cert.Lib.RowMax

open Idealize.ShloMosaic Idealize.ShloMosaic.ValueIdx

/-- The reduced index `p` with column `k` put back is `(p, k)`. -/
theorem lift_row {n b : ℕ} (hr : (⟨2, ![n, b]⟩ : Shape).Reduces [1] ⟨1, ![n]⟩) (p : Fin n)
    (k : Fin ((⟨2, ![n, b]⟩ : Shape).size 1)) : hr.lift (ix1 p) k = ix2 p (⟨k.val, k.isLt⟩ : Fin b) := by
  funext d; apply Fin.ext
  match d with
  | ⟨0, _⟩ => rfl
  | ⟨1, _⟩ => rfl

/-- A kernel's maximum along the second axis, at row `p`, is the fold of `max` from `-∞` over that row. -/
theorem rowmax_apply {a b : ℕ} (x : FVec Ideal ⟨2, ![a, b]⟩ .f32) (h : (⟨2, ![a, b]⟩ : Shape).Reduces [1] ⟨1, ![a]⟩)
    (hφ : FKind.Formats .f32) (hacc : (0xFF800000#32 : BitVec 32) = 0xFF800000#32) (p : Fin a) :
    multiReduction .maximumf [1] ⟨1, ![a]⟩ x 0xFF800000#32 h hφ hacc (ix1 p)
      = (Finset.univ : Finset (Fin b)).fold max (Ideal.ofBits .f32 0xFF800000#32) (fun k => x (ix2 p k)) := by
  refine (Ideal.multiReduction_maximumf_single x 0xFF800000#32 h hφ hacc (ix1 p)).trans ?_
  have hf : (x ∘ h.lift (ix1 p)) = fun k : Fin b => x (ix2 p k) := funext fun k => congrArg x (lift_row h p k)
  exact congrArg (fun f => Finset.fold max (Ideal.ofBits .f32 0xFF800000#32) f (Finset.univ : Finset (Fin b))) hf

/-- The host's reduce with a maximum body from `-∞` along the second axis, at row `p`, is the same fold. -/
theorem hostRowMax_apply {n b : ℕ} (z : FVec Ideal ⟨2, ![n, b]⟩ .f32) (hrt : (⟨2, ![n, b]⟩ : Shape).ReducesTo [1] ⟨1, ![n]⟩)
    (hr : (⟨2, ![n, b]⟩ : Shape).Reduces [1] ⟨1, ![n]⟩) (hu : 0 < (⟨0, ![]⟩ : Shape).numel) (p : Fin n) :
    Host.reduce FloatOps.maximumf z (constant (F := Ideal) ⟨0, ![]⟩ .f32 0xFF800000#32) hrt hu (ix1 p)
      = (Finset.univ : Finset (Fin b)).fold max (Ideal.ofBits .f32 0xFF800000#32) (fun k => z (ix2 p k)) := by
  rw [Host.reduce_eq_fold_single FloatOps.maximumf z _ hrt hr hu]
  have hf : (z ∘ hr.lift (ix1 p)) = fun k : Fin b => z (ix2 p k) := funext fun k => congrArg z (lift_row hr p k)
  exact congrArg (fun f => Finset.fold max (Ideal.ofBits .f32 0xFF800000#32) f (Finset.univ : Finset (Fin b))) hf

end Cert.Lib.RowMax

end
-- ==== Proof.LibMidAxis.lean ====
/-
  Layout operations whose unit axis sits in the MIDDLE of the shape, read at an index.

  A matrix [a, b] recast as [a, 1, b] (a row sum or a product kept with a unit axis so that it can be spread along
  it) reads at (i, u, j) the matrix at (i, j); a [1, 1, a] block recast as the vector [a] reads at i the block at
  (0, 0, i); spreading [a, 1, b] along its unit axis to [a, c, b] reads at (i, r, j) the operand at (i, 0, j); and
  spreading [1, c, b] along its leading unit axis to [a, c, b] reads at (i, r, j) the operand at (0, r, j).
  Each is the general read-at-an-index lemma of the operation with both indices written by coordinates.
-/
import Idealize.ShloMosaic.Lib.Pipeline.Value
import Idealize.ShloMosaic.Lib.ValueIdx

noncomputable section

namespace Cert.Lib.MidAxis

open Idealize.ShloMosaic Idealize.ShloMosaic.ValueIdx

variable {α : Type}

/-- An [a, b] array cast to [a, 1, b] reads, at (i, u, j), the operand at (i, j). -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A [1, 1, a] array cast to [a] reads, at i, the operand at (0, 0, i). -/
theorem shapeCast_11a_a_apply {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp only [Nat.zero_mul, Nat.zero_add, Nat.mul_one, Nat.add_zero])

/-- An [a, 1, b] array spread to [a, c, b] reads, at (i, r, j), the operand at (i, 0, j). -/
theorem broadcastTo_a1b_acb_apply {a b c : ℕ} (x : (⟨3, ![a, 1, b]⟩ : Shape).Idx → α)
    (h : (⟨3, ![a, 1, b]⟩ : Shape).Broadcasts ⟨3, ![a, c, b]⟩) (i : Fin a) (r : Fin c) (j : Fin b) :
    broadcastTo ⟨3, ![a, c, b]⟩ x h (ix3 i r j) = x (ix3 i (0 : Fin 1) j) := by
  refine broadcastTo_apply x h (ix3 i r j) (ix3 i (0 : Fin 1) j) fun ax => ?_
  match ax with
  | ⟨0, _⟩ =>
    show i.val = if a = 1 then 0 else i.val
    split
    · have := i.isLt; omega
    · rfl
  | ⟨1, _⟩ => rfl
  | ⟨2, _⟩ =>
    show j.val = if b = 1 then 0 else j.val
    split
    · have := j.isLt; omega
    · rfl

/-- A [1, c, b] array spread to [a, c, b] reads, at (i, r, j), the operand at (0, r, j). -/
theorem broadcastTo_1cb_acb_apply {a b c : ℕ} (x : (⟨3, ![1, c, b]⟩ : Shape).Idx → α)
    (h : (⟨3, ![1, c, b]⟩ : Shape).Broadcasts ⟨3, ![a, c, b]⟩) (i : Fin a) (r : Fin c) (j : Fin b) :
    broadcastTo ⟨3, ![a, c, b]⟩ x h (ix3 i r j) = x (ix3 (0 : Fin 1) r j) := by
  refine broadcastTo_apply x h (ix3 i r j) (ix3 (0 : Fin 1) r j) fun ax => ?_
  match ax with
  | ⟨0, _⟩ => rfl
  | ⟨1, _⟩ =>
    show r.val = if c = 1 then 0 else r.val
    split
    · have := r.isLt; omega
    · rfl
  | ⟨2, _⟩ =>
    show j.val = if b = 1 then 0 else j.val
    split
    · have := j.isLt; omega
    · rfl

end Cert.Lib.MidAxis

end
-- ==== Proof.PayOut.lean ====
/-
  The body's last payload, entry by entry on the extended reals: the distribution over the 8 classes.

  From the 2 normalised rows h, the column of weight-row variances, the centred weight rows, the second scale and shift
  and the bias, the body forms the normalised weight rows W[j,d] = (centred[j,d]·(var_j + ε)^(−1/2))·w_d + β_d, the logits
  (Σ_d h[p,d]·W[j,d] + bias_j)/1, their row maximum from −∞, and exp(l − max) over its row sum, recast to [2, 1, 8].
  Read at (p, u, k) this is the softmax of row p's logits at class k.
-/
import proofs.«162364_j71889162600594_2_alg».proof.Proof.Gen.KernelIdeal.Skeleton
import proofs.«162364_j71889162600594_2_alg».proof.Proof.LibRowStats
import proofs.«162364_j71889162600594_2_alg».proof.Proof.LibRowsDot
import proofs.«162364_j71889162600594_2_alg».proof.Proof.LibRowMax
import proofs.«162364_j71889162600594_2_alg».proof.Proof.LibMidAxis
import proofs.«162364_j71889162600594_2_alg».proof.Proof.RouterSpec
import proofs.«162364_j71889162600594_2_alg».proof.Proof.PayNorm
import Idealize.ShloMosaic.Lib.Pipeline.Value
import Idealize.ShloMosaic.Lib.ValueIdx

noncomputable section

namespace Cert.KernelIdeal.RouterValue

open Cert.KernelIdeal Cert.KernelIdeal.Gen Idealize.ShloMosaic Idealize.ShloMosaic.ValueIdx
open Cert.Gcn.Lib Cert.Lib.RowStats

/-- The product of the 2 rows with the 8 rows, both of width 4096, into a zero accumulator, at (a, b):
    Σ_d l[a,d]·r[b,d]. -/
theorem rowsDot_at (l : FVec Ideal S2x4096 .f32) (r : FVec Ideal S8x4096 .f32) (a : Fin 2) (b : Fin 8) :
    matmul dot_S2x4096_S8x4096_S2x8_1_1_0_0_n_n (some .fp32) l r (constant S2x8 .f32 0x00000000#32) (ix2 a b)
      = ∑ d : Fin 4096, l (ix2 a d) * r (ix2 b d) := by
  have hD : dot_S2x4096_S8x4096_S2x8_1_1_0_0_n_n = DotDims.transposedRhs 2 4096 8 := rfl
  refine (Ideal.matmul_constant_zero_apply _ (some .fp32) l r (ix2 a b)).trans ?_
  rw [hD]
  exact Cert.RowsDot.sum_at l r a b

/-- The distribution at (p, u, k). -/
theorem dist_at (h : FVec Ideal S2x4096 .f32) (vr : FVec Ideal S8x1 .f32) (ce : FVec Ideal S8x4096 .f32)
    (w β : Vec Ideal S4096 .f32) (bias : Vec Ideal S8 .f32) (p : Fin 2) (u : Fin 1) (k : Fin 8) :
    k0_pay6 h vr ce w β bias (ix3 p u k)
      = Cert.Router.softmax (Cert.Router.logit (fun d => h (ix2 p d))
          (fun j d => ce (ix2 j d) * Ideal.rsqrt (vr (ix2 j (0 : Fin 1)) + Cert.Router.eps) * w (ix1 d) + β (ix1 d))
          (fun j => bias (ix1 j))) k := by
  unfold k0_pay6
  rw [Cert.Lib.MidAxis.shapeCast_ab_a1b_apply]
  repeat (first | rw [rowsum_apply] | rw [Cert.Lib.RowMax.rowmax_apply] | simp only [addf_apply, mulf_apply, subf_apply, divf_apply, maximumf_apply, broadcast_apply, rsqrt_at, exp_at, rowspread_apply, colspread_apply, shapeCast_a_a1_apply, rowsDot_at])
  rfl

end Cert.KernelIdeal.RouterValue

end
-- ==== Proof.Collected.lean ====
/-
  What a batch block has collected after its 16 steps, and the block it writes.

  At the last point of batch block t/16 the accumulators hold the sum over the 16 steps of the blocks' contributions.
  Step s contributes the 256 sequence positions 256·s + r, so the sum over the steps and, within each, over r is the sum
  over all 4096 positions: for row p of the block and feature d the accumulators hold S[2·(t/16) + p, d] and
  N[2·(t/16) + p, d]. The output block at (p, ·, k) is therefore the distribution of batch row 2·(t/16) + p at class k.
-/
import proofs.«162364_j71889162600594_2_alg».proof.Proof.Accumulate
import proofs.«162364_j71889162600594_2_alg».proof.Proof.Blocks
import proofs.«162364_j71889162600594_2_alg».proof.Proof.PayNorm
import proofs.«162364_j71889162600594_2_alg».proof.Proof.PayOut

noncomputable section

namespace Cert.KernelIdeal.RouterValue

open Cert.KernelIdeal Cert.KernelIdeal.Gen Idealize.ShloMosaic Idealize.ShloMosaic.TcCoe Idealize.SL.Sem
open Idealize.ShloMosaic.ValueIdx

variable (m : (ℓ : Loc nD τ sig) → Buf (Elt Ideal) ℓ)

/-- Step s of the batch block that ends at t is a grid point. -/
theorem step_lt (t : Fin cfg0.N) (s : Fin 16) : t.val - 15 + s.val < cfg0.N := by
  have h : t.val < 32 := lt_of_lt_of_eq t.isLt (show cfg0.N = 32 from N_0)
  have hs := s.isLt
  exact lt_of_lt_of_eq (by omega : t.val - 15 + s.val < 32) (show cfg0.N = 32 from N_0).symm

/-- Its blocks hold the same batch rows as t's; -/
theorem step_row (t : Fin cfg0.N) (h1 : t.val % 16 = 15) (s : Fin 16) (p : Fin 2) :
    rowOf ⟨t.val - 15 + s.val, step_lt t s⟩ p = rowOf t p :=
  Fin.ext (by
    show 2 * ((t.val - 15 + s.val) / 16) + p.val = 2 * (t.val / 16) + p.val
    have := s.isLt
    omega)

/-- and the sequence positions of block s. -/
theorem step_pos (t : Fin cfg0.N) (h1 : t.val % 16 = 15) (s : Fin 16) (r : Fin 256) :
    posOf ⟨t.val - 15 + s.val, step_lt t s⟩ r = Cert.Router.seqPos s r :=
  Fin.ext (by
    show 256 * ((t.val - 15 + s.val) % 16) + r.val = s.val * 256 + r.val
    have := s.isLt
    omega)

/-- The collected sums are the masked sums over the whole sequence axis. -/
theorem collected_sum (c : Dev nD) (t : Fin cfg0.N) (h1 : t.val % 16 = 15) (p : Fin 2) (d : Fin 4096) :
    partSum m c t.val (ix2 p d)
      = Cert.Router.sums (m ((c : Thread nD τ).loc main_arg0)) (m ((c : Thread nD τ).loc main_arg1))
          (m ((c : Thread nD τ).loc main_arg2)) (rowOf t p) d := by
  unfold partSum Cert.Router.sums
  rw [h1, show (15 + 1 : ℕ) = 16 from rfl, Finset.sum_range, Cert.Router.sum_seq_blocks]
  refine Finset.sum_congr rfl fun s _ => ?_
  rw [ptSum_of_lt m c (step_lt t s)]
  refine (blockSum_at (iblk m c 0 ⟨t.val - 15 + s.val, step_lt t s⟩) (iblk m c 1 ⟨t.val - 15 + s.val, step_lt t s⟩) p d).trans ?_
  refine Finset.sum_congr rfl fun r _ => ?_
  rw [xblock_at m c ⟨t.val - 15 + s.val, step_lt t s⟩ p r d, mblock_at m c ⟨t.val - 15 + s.val, step_lt t s⟩ p r 0,
    step_row t h1 s p, step_pos t h1 s r]
  rfl

/-- The collected counts are the non-zero counts over the whole sequence axis. -/
theorem collected_count (c : Dev nD) (t : Fin cfg0.N) (h1 : t.val % 16 = 15) (p : Fin 2) (d : Fin 4096) :
    partCount m c t.val (ix2 p d)
      = Cert.Router.counts (m ((c : Thread nD τ).loc main_arg0)) (m ((c : Thread nD τ).loc main_arg1))
          (m ((c : Thread nD τ).loc main_arg2)) (rowOf t p) d := by
  unfold partCount Cert.Router.counts
  rw [h1, show (15 + 1 : ℕ) = 16 from rfl, Finset.sum_range, Cert.Router.sum_seq_blocks]
  refine Finset.sum_congr rfl fun s _ => ?_
  rw [ptCount_of_lt m c (step_lt t s)]
  refine (blockCount_at (iblk m c 0 ⟨t.val - 15 + s.val, step_lt t s⟩) (iblk m c 1 ⟨t.val - 15 + s.val, step_lt t s⟩) p d).trans ?_
  refine Finset.sum_congr rfl fun r _ => ?_
  rw [xblock_at m c ⟨t.val - 15 + s.val, step_lt t s⟩ p r d, mblock_at m c ⟨t.val - 15 + s.val, step_lt t s⟩ p r 0,
    step_row t h1 s p, step_pos t h1 s r]
  rfl

/-- The block a batch block's last point writes: the distributions of its two batch rows. -/
theorem block_dist (c : Dev nD) (t : Fin cfg0.N) (h1 : t.val % 16 = 15) (p : Fin 2) (u : Fin 1) (k : Fin 8) :
    (outsAt0 m c t.val t.isLt).1 (ix3 p u k)
      = Cert.Router.distAt (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) (rowOf t p) k := by
  rw [out_after m c t h1, scale1_at m c t, shift1_at m c t, scale2_at m c t, shift2_at m c t, weights_at m c t, bias_at m c t]
  refine (dist_at (k0_pay7 (F := Ideal) (partSum m c t.val) (partCount m c t.val) (m ((c : Thread nD τ).loc main_arg3))
    (m ((c : Thread nD τ).loc main_arg4))) (k0_pay9 (F := Ideal) (m ((c : Thread nD τ).loc main_arg7)))
    (k0_pay10 (F := Ideal) (m ((c : Thread nD τ).loc main_arg7))) (m ((c : Thread nD τ).loc main_arg5))
    (m ((c : Thread nD τ).loc main_arg6)) (m ((c : Thread nD τ).loc main_arg8)) p u k).trans ?_
  simp only [quotRows_at, weightVar_at, weightCentred_at, collected_sum m c t h1, collected_count m c t h1]
  rfl

end Cert.KernelIdeal.RouterValue

end
-- ==== Proof.KernelRun.lean ====
/-
  The kernel's run: its result array is the routing distribution of its arguments.

  Output block t/16 is written back once, after the batch block's 16th step, and holds the distributions of batch rows
  2·(t/16) and 2·(t/16) + 1; the two blocks tile the [4, 1, 8] result, so after the run the array holds the distribution
  of every batch row. The second result is the zero the program writes after the kernel; the arguments are unchanged.
-/
import proofs.«162364_j71889162600594_2_alg».proof.Proof.Collected

noncomputable section

namespace Cert.KernelIdeal.RouterValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The routing distribution of core c's arguments. -/
abbrev result (c : Dev nD) : Buf (Elt Ideal) ((c : Thread nD τ).loc main_v3) :=
  Cert.Router.dist (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))

/-- The second result: the zero written after the kernel. -/
abbrev aux (c : Dev nD) : Buf (Elt Ideal) ((c : Thread nD τ).loc main_v4) :=
  broadcastInDim S1 ![] bcast_S_S1 (constant (F := Ideal) S_ .f32 0x00000000#32)

/-- An entry of the block a batch block's last point writes is the result's entry at the batch row it stands for. -/
theorem entry_eq (c : Dev nD) (t : Fin cfg0.N) (h1 : t.val % 16 = 15) (y : S2x1x8.Idx) (i : S4x1x8.Idx)
    (h0 : (i 0).val = 2 * (t.val / 16) + (y 0).val) (h2 : (i 2).val = (y 2).val) :
    (outsAt0 m c t.val t.isLt).1 y = result m c i := by
  obtain ⟨p, u, k, rfl⟩ : ∃ (p : Fin 2) (u : Fin 1) (k : Fin 8), y = ix3 p u k := ⟨y 0, y 1, y 2, eq_ix3 y⟩
  obtain ⟨b, u', k', rfl⟩ : ∃ (b : Fin 4) (u' : Fin 1) (k' : Fin 8), i = ix3 b u' k' := ⟨i 0, i 1, i 2, eq_ix3 i⟩
  have hb : rowOf t p = b := Fin.ext h0.symm
  have hk : k = k' := Fin.ext h2.symm
  rw [block_dist m c t h1 p u k, hb, hk]
  rfl

/-- What a flushing point writes back is its block of the result. -/
theorem flushed_eq (c : Dev nD) (t : Fin cfg0.N) (hf : (cfg0.win 8).flush t = true) :
    (dats m 0 c).flushed 8 t = ((cfg0.win 8).blk t).view.read (Elt Ideal) (result m c) := by
  have h1 : t.val % 16 = 15 := (flush0_8 t).mp hf
  show (cfg0.win 8).cut (grid0.coords t) ((dats m 0 c).after 8 t) = _
  rw [after0_8]
  funext y
  rw [View.read_apply]
  obtain ⟨-, -, -, -, -, -, -, -, -, -, -, -, -, e0, e1, e2⟩ := idx_facts t
  refine entry_eq m c t h1 y (((cfg0.win 8).blk t).view.emb y) ?_ ?_
  · show win0_8.index t (0 : Fin 3) * 2 + 1 * (y 0).val = 2 * (t.val / 16) + (y 0).val
    rw [e0]; omega
  · show win0_8.index t (2 : Fin 3) * 8 + 1 * (y 2).val = (y 2).val
    rw [e2]; omega

/-- An index of the result is in point t's block iff each coordinate is in the block's range on its axis. -/
theorem mem_blk (t : Fin cfg0.N) (i : S4x1x8.Idx) :
    i ∈ ((cfg0.win 8).blk t).view.set
      ↔ ∀ a : Fin 3, win0_8.index t a * S2x1x8.size a ≤ (i a).val ∧ (i a).val < win0_8.index t a * S2x1x8.size a + S2x1x8.size a := by
  show i ∈ ((View.whole main_v3).slice (win0_8.rect t)).set ↔ _
  rw [View.set_slice_whole, Rect.mem_set_unit]
  exact Iff.rfl

/-- Every index of the result is in the block of its batch block's last point. -/
theorem cover (i : S4x1x8.Idx) :
    ∃ t : Fin cfg0.N, (cfg0.win 8).flush t = true ∧ i ∈ ((cfg0.win 8).blk t).view.set := by
  have hN : cfg0.N = 32 := N_0
  have hi0 : (i 0).val < 4 := (i 0).isLt
  have hi1 : (i 1).val < 1 := (i 1).isLt
  have hi2 : (i 2).val < 8 := (i 2).isLt
  obtain ⟨t, htv⟩ : ∃ t : Fin cfg0.N, t.val = 16 * ((i 0).val / 2) + 15 :=
    ⟨⟨16 * ((i 0).val / 2) + 15, lt_of_lt_of_eq (by omega) hN.symm⟩, rfl⟩
  refine ⟨t, (flush0_8 t).mpr (by omega), ?_⟩
  rw [mem_blk]
  obtain ⟨-, -, -, -, -, -, -, -, -, -, -, -, -, e0, e1, e2⟩ := idx_facts t
  intro a
  match a with
  | ⟨0, _⟩ =>
    show win0_8.index t (0 : Fin 3) * 2 ≤ (i 0).val ∧ (i 0).val < win0_8.index t (0 : Fin 3) * 2 + 2
    rw [e0]; omega
  | ⟨1, _⟩ =>
    show win0_8.index t (1 : Fin 3) * 1 ≤ (i 1).val ∧ (i 1).val < win0_8.index t (1 : Fin 3) * 1 + 1
    rw [e1]; omega
  | ⟨2, _⟩ =>
    show win0_8.index t (2 : Fin 3) * 8 ≤ (i 2).val ∧ (i 2).val < win0_8.index t (2 : Fin 3) * 8 + 8
    rw [e2]; omega

/-- After the run the result array holds the routing distribution. -/
theorem final (c : Dev nD) : (dats m 0 c).arrAt 8 cfg0.N = result m c :=
  (dats m 0 c).arrAt_eq_of_cover 8 (result m c) (fun t hf => flushed_eq m c t hf) cover

/-- The operations after the kernel write the zero into the second result. -/
theorem tail_aux (c : Dev nD) :
    Pipeline.afterTail₀ cfgs (dats m) 0 (V0 m) [hostOps1] c main_v4 = aux c := by
  unfold Pipeline.afterTail₀
  show StableHlo.after hostOps1 _ (Proc.devRef .tc main_v4) = _
  after_results

/-- The run, read: both results named, the arguments unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_v4) = aux c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨((h c).1 8).trans (final m c),
      ((h c).2 main_v4 (Pipeline.mem_restRefs_of main_v4 (by decide) (by decide))).trans (tail_aux m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c))),
      ((h c).1 5).trans (((dats m 0 c).arrAt_in 5 rfl _).trans ((A_eq m c 5).trans (V_main_arg6 m c))),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c)))⟩)
    (run_main m ρ)

end Cert.KernelIdeal.RouterValue

end
-- ==== Proof.lean ====
/-
  The certificate of the routing kernel against its jnp reference.

  Both programs compute, for each of 4 batch rows, a distribution over 8 classes: the masked average of x over the
  sequence axis (sum over count of non-zeros), a row normalisation of it, a row normalisation of the 8 weight rows, the
  contraction of the two over the 4096 features plus a bias, over a temperature of 1, and the softmax of the result.
  The reference does this on whole arrays; the kernel walks the sequence axis in 16 steps of 256 positions per block of
  2 batch rows, accumulating the sums and counts, and applies the rest at the last step. On the extended reals the two
  agree entry by entry: a sum over 4096 positions is the sum of the 16 block sums (addition is associative and
  commutative there), and every other operation is the same function on both sides with the same literals, so the
  precondition is not used. The ideal pass rewrote nothing, so the kernel's idealization is its own text. The frames are
  the generated ones for the two kernels and the reference's generated run for the reference.
-/
import proofs.«162364_j71889162600594_2_alg».proof.Defs
import proofs.«162364_j71889162600594_2_alg».proof.Proof.Gen.Kernel
import proofs.«162364_j71889162600594_2_alg».proof.Proof.Gen.Kernel.Skeleton
import proofs.«162364_j71889162600594_2_alg».proof.Proof.Gen.Kernel.Launch
import proofs.«162364_j71889162600594_2_alg».proof.Proof.Gen.Kernel.Points
import proofs.«162364_j71889162600594_2_alg».proof.Proof.Gen.Kernel.Frame
import proofs.«162364_j71889162600594_2_alg».proof.Proof.Gen.KernelIdeal
import proofs.«162364_j71889162600594_2_alg».proof.Proof.Gen.KernelIdeal.Skeleton
import proofs.«162364_j71889162600594_2_alg».proof.Proof.Gen.KernelIdeal.Launch
import proofs.«162364_j71889162600594_2_alg».proof.Proof.Gen.KernelIdeal.Points
import proofs.«162364_j71889162600594_2_alg».proof.Proof.Gen.KernelIdeal.Frame
import proofs.«162364_j71889162600594_2_alg».proof.Proof.Gen.ReferenceIdeal
import proofs.«162364_j71889162600594_2_alg».proof.Proof.Gen.Pre_finite_inputs
import proofs.«162364_j71889162600594_2_alg».proof.Proof.Gen.ReferenceIdeal.Run
import proofs.«162364_j71889162600594_2_alg».proof.Proof.Gen.ReferenceIdeal.Read
import proofs.«162364_j71889162600594_2_alg».proof.Proof.RefIsSpec
import proofs.«162364_j71889162600594_2_alg».proof.Proof.KernelRun
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- At the extended reals the kernel's result array ends at the routing distribution of its arguments (the walk over
    the sequence axis collects the whole sums and counts), the reference's at the same function of arguments that
    agree; the second result is the same zero on both sides. -/
theorem algebraic : Cert.algebraic_KernelIdeal_ReferenceIdeal := by
  intro m ρ m' ρ' _ hagree
  refine ⟨fun c => Cert.KernelIdeal.RouterValue.result m c, fun c => Cert.KernelIdeal.RouterValue.aux c,
    Cert.KernelIdeal.RouterValue.run m ρ, ?_⟩
  refine (θ_run Cert.ReferenceIdeal.defs _ _).mono (fun _ h c => ?_) (Cert.ReferenceIdeal.Value.run (F := Ideal) m' ρ')
  obtain ⟨hr, ha, hargs⟩ := h c
  obtain ⟨g0, g1, g2, g3, g4, g5, g6, g7, g8⟩ := hagree c
  refine ⟨hr.trans ?_, ha.trans rfl, hargs⟩
  rw [Cert.ReferenceIdeal.Read.val_main_v76_eq, Cert.ReferenceIdeal.RefValue.result_eq, g0, g1, g2, g3, g4, g5, g6, g7, g8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
